-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S28864 : Shape := ⟨1, ![28864]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S28864 : S_.BroadcastsInDim S28864 (![] : Fin 0 → Fin S28864.rank)
  reducesTo_S28864_S_d0 : S28864.ReducesTo [0] S_

variable [Facts]

def fn {F : FTy → Type} [FloatOps F] (main_arg0 : FVec F S16x3x1024x1024 .f32) (main_arg1 : FVec F S28864 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S28864 .f32 := Host.absf main_arg1
  let main_cst_0 : FVec F S_ .f32 := constant S_ .f32 0x7F800000#32
  let main_v5 : FVec F S28864 .f32 := broadcastInDim S28864 ![] bcast_S_S28864 main_cst_0
  let main_v6 : IVec S28864 1 := cmpf .olt main_v4 main_v5
  let main_c_1 : IVec S_ 1 := constantI S_ 1 1#1
  let main_v7 : IVec S_ 1 := (fun x v => Host.reduce IntOp.andi x v reducesTo_S28864_S_d0 h_S_) main_v6 main_c_1
  let main_v8 : IVec S_ 1 := andi main_v3 main_v7
  main_v8
-- ==== Kernel.lean ====
abbrev S16x3x1024x1024 : Shape := ⟨4, ![16, 3, 1024, 1024]⟩
abbrev S28864 : Shape := ⟨1, ![28864]⟩
abbrev S16x64x3 : Shape := ⟨3, ![16, 64, 3]⟩
abbrev S1x3x256x1024 : Shape := ⟨4, ![1, 3, 256, 1024]⟩
abbrev S1x64x3 : Shape := ⟨3, ![1, 64, 3]⟩
abbrev S64x3 : Shape := ⟨2, ![64, 3]⟩
abbrev S64x1 : Shape := ⟨2, ![64, 1]⟩
abbrev S1x1x8x1024 : Shape := ⟨4, ![1, 1, 8, 1024]⟩
abbrev S8x1024 : Shape := ⟨2, ![8, 1024]⟩
abbrev S8x1x1024 : Shape := ⟨3, ![8, 1, 1024]⟩
abbrev S8x64x1024 : Shape := ⟨3, ![8, 64, 1024]⟩
abbrev S64x1024 : Shape := ⟨2, ![64, 1024]⟩
abbrev S64 : Shape := ⟨1, ![64]⟩
abbrev S16x3x64 : Shape := ⟨3, ![16, 3, 64]⟩
abbrev S16x192 : Shape := ⟨2, ![16, 192]⟩
abbrev S24576 : Shape := ⟨1, ![24576]⟩
abbrev S192x128 : Shape := ⟨2, ![192, 128]⟩
abbrev S128 : Shape := ⟨1, ![128]⟩
abbrev S16x128 : Shape := ⟨2, ![16, 128]⟩
abbrev S1x128 : Shape := ⟨2, ![1, 128]⟩
abbrev S_ : Shape := ⟨0, ![]⟩
abbrev S4096 : Shape := ⟨1, ![4096]⟩
abbrev S128x32 : Shape := ⟨2, ![128, 32]⟩
abbrev S32 : Shape := ⟨1, ![32]⟩
abbrev S16x32 : Shape := ⟨2, ![16, 32]⟩
abbrev S1x32 : Shape := ⟨2, ![1, 32]⟩
abbrev S1 : Shape := ⟨1, ![1]⟩

abbrev nBuf : Space → Nat
  | .hbm => 34
  | .vmem => 5
  | .smem => 0
  | _ => 0

abbrev bufTy : (tb : Table) → Fin (tcTables nBuf tb) → BufTy
  | .hbm, ⟨0, _⟩ => ⟨S16x3x1024x1024, .f32⟩
  | .hbm, ⟨1, _⟩ => ⟨S28864, .f32⟩
  | .hbm, ⟨2, _⟩ => ⟨S16x64x3, .f32⟩
  | .hbm, ⟨3, _⟩ => ⟨S16x3x64, .f32⟩
  | .hbm, ⟨4, _⟩ => ⟨S16x192, .f32⟩
  | .hbm, ⟨5, _⟩ => ⟨S24576, .f32⟩
  | .hbm, ⟨6, _⟩ => ⟨S192x128, .f32⟩
  | .hbm, ⟨7, _⟩ => ⟨S128, .f32⟩
  | .hbm, ⟨8, _⟩ => ⟨S16x128, .f32⟩
  | .hbm, ⟨9, _⟩ => ⟨S1x128, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S4096, .f32⟩
  | .hbm, ⟨16, _⟩ => ⟨S128x32, .f32⟩
  | .hbm, ⟨17, _⟩ => ⟨S32, .f32⟩
  | .hbm, ⟨18, _⟩ => ⟨S16x32, .f32⟩
  | .hbm, ⟨19, _⟩ => ⟨S1x32, .f32⟩
  | .hbm, ⟨20, _⟩ => ⟨S16x32, .f32⟩
  | .hbm, ⟨21, _⟩ => ⟨S16x32, .f32⟩
  | .hbm, ⟨22, _⟩ => ⟨S1, .f32⟩
  | .hbm, ⟨23, _⟩ => ⟨S_, .f32⟩
  | .hbm, ⟨24, _⟩ => ⟨S16x32, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S_, .f32⟩
  | .hbm, ⟨29, _⟩ => ⟨S16x32, .f32⟩
  | .hbm, ⟨30, _⟩ => ⟨S16x32, .f32⟩
  | .hbm, ⟨31, _⟩ => ⟨S_, .f32⟩
  | .hbm, ⟨32, _⟩ => ⟨S16x32, .f32⟩
  | .hbm, ⟨33, _⟩ => ⟨S16x32, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x64x3, .f32⟩
  | .local _ .vmem, ⟨3, _⟩ => ⟨S1x64x3, .f32⟩
  | .local _ .vmem, ⟨4, _⟩ => ⟨S64x3, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_cst : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c8_i32 : BitVec 32 := 8#32
  let v30 : BitVec 32 := Scalar.muli arg5 c8_i32
  v30
def k0_off1 (k0_t1 : Fin k0_t1_loop.trips) : Fin 4 → Nat :=
  let c0_23 : Index := 0#32
  let c0_24 : Index := 0#32
  let c0_i32_1 : BitVec 32 := 0#32
  let c1_i32 : BitVec 32 := 1#32
  let arg5 : BitVec 32 := Scf.iv c0_i32_1 c1_i32 k0_t1
  let c8_i32 : BitVec 32 := 8#32
  let v30 : BitVec 32 := Scalar.muli arg5 c8_i32
  let v31 : BitVec 32 := v30
  let v32 : Index := Scalar.indexCast v31
  let c0_25 : Index := 0#32
  ![0, 0, v32.toNat, 0]
@[reducible] def k0_t2_loop : Scf.Loop 32 :=
  let c0_i32_7 : BitVec 32 := 0#32
  let c32_i32_8 : BitVec 32 := 32#32
  let v12 : BitVec 32 := Scalar.addi c0_i32_7 c32_i32_8
  let c1_i32_9 : BitVec 32 := 1#32
  ⟨c0_i32_7, v12, c1_i32_9⟩
def k0_mult2 (k0_t2 : Fin k0_t2_loop.trips) : BitVec 32 :=
  let c0_i32_7 : BitVec 32 := 0#32
  let c1_i32_9 : BitVec 32 := 1#32
  let arg5 : BitVec 32 := Scf.iv c0_i32_7 c1_i32_9 k0_t2
  let c8_i32 : BitVec 32 := 8#32
  let v30 : BitVec 32 := Scalar.muli arg5 c8_i32
  v30
def k0_off2 (k0_t2 : Fin k0_t2_loop.trips) : Fin 4 → Nat :=
  let c0_23 : Index := 0#32
  let c1_24 : Index := 1#32
  let c0_i32_7 : BitVec 32 := 0#32
  let c1_i32_9 : BitVec 32 := 1#32
  let arg5 : BitVec 32 := Scf.iv c0_i32_7 c1_i32_9 k0_t2
  let c8_i32 : BitVec 32 := 8#32
  let v30 : BitVec 32 := Scalar.muli arg5 c8_i32
  let v31 : BitVec 32 := v30
  let v32 : Index := Scalar.indexCast v31
  let c0_25 : Index := 0#32
  ![0, 1, v32.toNat, 0]
@[reducible] def k0_t3_loop : Scf.Loop 32 :=
  let c0_i32_15 : BitVec 32 := 0#32
  let c32_i32_16 : BitVec 32 := 32#32
  let v20 : BitVec 32 := Scalar.addi c0_i32_15 c32_i32_16
  let c1_i32_17 : BitVec 32 := 1#32
  ⟨c0_i32_15, v20, c1_i32_17⟩
def k0_mult3 (k0_t3 : Fin k0_t3_loop.trips) : BitVec 32 :=
  let c0_i32_15 : BitVec 32 := 0#32
  let c1_i32_17 : BitVec 32 := 1#32
  let arg5 : BitVec 32 := Scf.iv c0_i32_15 c1_i32_17 k0_t3
  let c8_i32 : BitVec 32 := 8#32
  let v30 : BitVec 32 := Scalar.muli arg5 c8_i32
  v30
def k0_off3 (k0_t3 : Fin k0_t3_loop.trips) : Fin 4 → Nat :=
  let c0_23 : Index := 0#32
  let c2_24 : Index := 2#32
  let c0_i32_15 : BitVec 32 := 0#32
  let c1_i32_17 : BitVec 32 := 1#32
  let arg5 : BitVec 32 := Scf.iv c0_i32_15 c1_i32_17 k0_t3
  let c8_i32 : BitVec 32 := 8#32
  let v30 : BitVec 32 := Scalar.muli arg5 c8_i32
  let v31 : BitVec 32 := v30
  let v32 : Index := Scalar.indexCast v31
  let c0_25 : Index := 0#32
  ![0, 2, v32.toNat, 0]
def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_22 : BitVec 32 := 0#32
  let v29 : BitVec 1 := Scalar.cmpi .ne v28 c0_i32_22
  v29

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S64x3_S64x3_0_0 : ∀ a, (![0, 0] : Fin 2 → Nat) a + S64x3.size a ≤ S64x3.size a
  h_S64x3 : 0 < S64x3.numel
  shapeCasts_S64x3_S64x3 : S64x3.ShapeCasts S64x3
  h_S1x1x8x1024 : 0 < S1x1x8x1024.numel
  shapeCasts_S1x1x8x1024_S8x1024 : S1x1x8x1024.ShapeCasts S8x1024
  shapeCasts_S8x1024_S8x1x1024 : S8x1024.ShapeCasts S8x1x1024
  shapeCasts_S8x1x1024_S8x1x1024 : S8x1x1024.ShapeCasts S8x1x1024
  broadcasts_S8x1x1024_S8x64x1024 : S8x1x1024.Broadcasts S8x64x1024
  iota_S8x64x1024_d1_w32 : S8x64x1024.Iotas .tc 32 [1]
  natLt_1_32 : 1 < 32
  reduces_S8x64x1024_S64x1024 : S8x64x1024.Reduces [0] S64x1024
  reduces_S64x1024_S64 : S64x1024.Reduces [1] S64
  shapeCasts_S64_S64x1 : S64.ShapeCasts S64x1
  inb_S64x3_S64x1_0_0 : ∀ a, (![0, 0] : Fin 2 → Nat) a + S64x1.size a ≤ S64x3.size a
  h_S64x1 : 0 < S64x1.numel
  shapeCasts_S64x1_S64x1 : S64x1.ShapeCasts S64x1
  inb_S64x3_S64x1_0_1 : ∀ a, (![0, 1] : Fin 2 → Nat) a + S64x1.size a ≤ S64x3.size a
  inb_S64x3_S64x1_0_2 : ∀ a, (![0, 2] : Fin 2 → Nat) a + S64x1.size a ≤ S64x3.size a
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  shapeCasts_S64x3_S1x64x3 : S64x3.ShapeCasts S1x64x3
  transposes_S16x64x3_S16x3x64_0_2_1 : S16x64x3.Transposes [0, 2, 1] S16x3x64
  shapeCasts_S16x3x64_S16x192 : S16x3x64.ShapeCasts S16x192
  slices_S28864_S24576_0 : S28864.Slices ![0] S24576
  shapeCasts_S24576_S192x128 : S24576.ShapeCasts S192x128
  slices_S28864_S128_24576 : S28864.Slices ![24576] S128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  slices_S28864_S4096_24704 : S28864.Slices ![24704] S4096
  shapeCasts_S4096_S128x32 : S4096.ShapeCasts S128x32
  slices_S28864_S32_28800 : S28864.Slices ![28800] S32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  slices_S28864_S1_28832 : S28864.Slices ![28832] S1
  shapeCasts_S1_S_ : S1.ShapeCasts S_
  bcast_S_S16x32 : S_.BroadcastsInDim S16x32 (![] : Fin 0 → Fin S16x32.rank)
  dot_S16x192_S192x128_S16x128_1_0_0_1_n_n_wf : DotDims.WF S16x192 S192x128 S16x128 [1] [0] [0] [1] [] []
  dot_S16x128_S128x32_S16x32_1_0_0_1_n_n_wf : DotDims.WF S16x128 S128x32 S16x32 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x8x1024.size a ≤ S1x3x256x1024.size a
  k0_t2_ok : k0_t2_loop.OK
  k0_mult2_dvd : ∀ k0_t2 : Fin k0_t2_loop.trips, 8 ∣ (k0_mult2 k0_t2).toNat
  k0_off2_inb : ∀ k0_t2 : Fin k0_t2_loop.trips, ∀ a, (k0_off2 k0_t2) a + S1x1x8x1024.size a ≤ S1x3x256x1024.size a
  k0_t3_ok : k0_t3_loop.OK
  k0_mult3_dvd : ∀ k0_t3 : Fin k0_t3_loop.trips, 8 ∣ (k0_mult3 k0_t3).toNat
  k0_off3_inb : ∀ k0_t3 : Fin k0_t3_loop.trips, ∀ a, (k0_off3 k0_t3) a + S1x1x8x1024.size a ≤ S1x3x256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S16x3x1024x1024.size a
  hwx0_0 : ∀ i : grid0.Coords, EltTy.bits .f32 = 32 ∨ (Rect.block (s := S16x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3.size a ≤ S16x64x3.size a
  hwx0_1 : ∀ i : grid0.Coords, EltTy.bits .f32 = 32 ∨ (Rect.block (s := S16x64x3) S1x64x3.size (cc0_transform_1 i) (hinb0_1 i)).WholeWords (EltTy.packing .f32)

variable [Facts₀]

def dot_S16x192_S192x128_S16x128_1_0_0_1_n_n : DotDims S16x192 S192x128 S16x128 where
  lhsContracting := [1]
  rhsContracting := [0]
  lhsNonContracting := [0]
  rhsNonContracting := [1]
  lhsBatch := []
  rhsBatch := []
  wf := dot_S16x192_S192x128_S16x128_1_0_0_1_n_n_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf

abbrev win0_0 : Pipeline.Window sig grid0 :=
  Pipeline.Window.ofSpec (Memref.whole main_arg0) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x3x1024x1024 : Shape := ⟨4, ![16, 3, 1024, 1024]⟩
abbrev S28864 : Shape := ⟨1, ![28864]⟩
abbrev S48x1048576 : Shape := ⟨2, ![48, 1048576]⟩
abbrev S_ : Shape := ⟨0, ![]⟩
abbrev S48 : Shape := ⟨1, ![48]⟩
abbrev S48x1 : Shape := ⟨2, ![48, 1]⟩
abbrev S50331648 : Shape := ⟨1, ![50331648]⟩
abbrev S3072 : Shape := ⟨1, ![3072]⟩
abbrev S50331648x1 : Shape := ⟨2, ![50331648, 1]⟩
abbrev S16x192 : Shape := ⟨2, ![16, 192]⟩
abbrev S24576 : Shape := ⟨1, ![24576]⟩
abbrev S192x128 : Shape := ⟨2, ![192, 128]⟩
abbrev S128 : Shape := ⟨1, ![128]⟩
abbrev S16x128 : Shape := ⟨2, ![16, 128]⟩
abbrev S1x128 : Shape := ⟨2, ![1, 128]⟩
abbrev S4096 : Shape := ⟨1, ![4096]⟩
abbrev S128x32 : Shape := ⟨2, ![128, 32]⟩
abbrev S32 : Shape := ⟨1, ![32]⟩
abbrev S16x32 : Shape := ⟨2, ![16, 32]⟩
abbrev S1x32 : Shape := ⟨2, ![1, 32]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S28864, .f32⟩
  | .hbm, ⟨2, _⟩ => ⟨S48x1048576, .f32⟩
  | .hbm, ⟨3, _⟩ => ⟨S_, .f32⟩
  | .hbm, ⟨4, _⟩ => ⟨S48x1048576, .f32⟩
  | .hbm, ⟨5, _⟩ => ⟨S48x1048576, .f32⟩
  | .hbm, ⟨6, _⟩ => ⟨S48x1048576, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S48x1048576, .i32⟩
  | .hbm, ⟨11, _⟩ => ⟨S48x1048576, .i32⟩
  | .hbm, ⟨12, _⟩ => ⟨S_, .i32⟩
  | .hbm, ⟨13, _⟩ => ⟨S48x1048576, .i32⟩
  | .hbm, ⟨14, _⟩ => ⟨S48x1048576, .i32⟩
  | .hbm, ⟨15, _⟩ => ⟨S48, .i32⟩
  | .hbm, ⟨16, _⟩ => ⟨S48x1, .i32⟩
  | .hbm, ⟨17, _⟩ => ⟨S_, .i32⟩
  | .hbm, ⟨18, _⟩ => ⟨S48x1, .i32⟩
  | .hbm, ⟨19, _⟩ => ⟨S48x1, .i32⟩
  | .hbm, ⟨20, _⟩ => ⟨S48x1048576, .i32⟩
  | .hbm, ⟨21, _⟩ => ⟨S48x1048576, .i32⟩
  | .hbm, ⟨22, _⟩ => ⟨S50331648, .i32⟩
  | .hbm, ⟨23, _⟩ => ⟨S_, .f32⟩
  | .hbm, ⟨24, _⟩ => ⟨S3072, .f32⟩
  | .hbm, ⟨25, _⟩ => ⟨S_, .i32⟩
  | .hbm, ⟨26, _⟩ => ⟨S50331648, .i32⟩
  | .hbm, ⟨27, _⟩ => ⟨S50331648, .i1⟩
  | .hbm, ⟨28, _⟩ => ⟨S_, .i32⟩
  | .hbm, ⟨29, _⟩ => ⟨S50331648, .i32⟩
  | .hbm, ⟨30, _⟩ => ⟨S50331648, .i32⟩
  | .hbm, ⟨31, _⟩ => ⟨S50331648, .i32⟩
  | .hbm, ⟨32, _⟩ => ⟨S50331648x1, .i32⟩
  | .hbm, ⟨33, _⟩ => ⟨S_, .f32⟩
  | .hbm, ⟨34, _⟩ => ⟨S50331648, .f32⟩
  | .hbm, ⟨35, _⟩ => ⟨S3072, .f32⟩
  | .hbm, ⟨36, _⟩ => ⟨S16x192, .f32⟩
  | .hbm, ⟨37, _⟩ => ⟨S24576, .f32⟩
  | .hbm, ⟨38, _⟩ => ⟨S192x128, .f32⟩
  | .hbm, ⟨39, _⟩ => ⟨S128, .f32⟩
  | .hbm, ⟨40, _⟩ => ⟨S16x128, .f32⟩
  | .hbm, ⟨41, _⟩ => ⟨S1x128, .f32⟩
  | .hbm, ⟨42, _⟩ => ⟨S16x128, .f32⟩
  | .hbm, ⟨43, _⟩ => ⟨S16x128, .f32⟩
  | .hbm, ⟨44, _⟩ => ⟨S_, .f32⟩
  | .hbm, ⟨45, _⟩ => ⟨S16x128, .f32⟩
  | .hbm, ⟨46, _⟩ => ⟨S16x128, .f32⟩
  | .hbm, ⟨47, _⟩ => ⟨S4096, .f32⟩
  | .hbm, ⟨48, _⟩ => ⟨S128x32, .f32⟩
  | .hbm, ⟨49, _⟩ => ⟨S32, .f32⟩
  | .hbm, ⟨50, _⟩ => ⟨S16x32, .f32⟩
  | .hbm, ⟨51, _⟩ => ⟨S1x32, .f32⟩
  | .hbm, ⟨52, _⟩ => ⟨S16x32, .f32⟩
  | .hbm, ⟨53, _⟩ => ⟨S16x32, .f32⟩
  | .hbm, ⟨54, _⟩ => ⟨S1, .f32⟩
  | .hbm, ⟨55, _⟩ => ⟨S_, .f32⟩
  | .hbm, ⟨56, _⟩ => ⟨S16x32, .f32⟩
  | .hbm, ⟨57, _⟩ => ⟨S16x32, .f32⟩
  | .hbm, ⟨58, _⟩ => ⟨S16x32, .f32⟩
  | .hbm, ⟨59, _⟩ => ⟨S16x32, .f32⟩
  | .hbm, ⟨60, _⟩ => ⟨S_, .f32⟩
  | .hbm, ⟨61, _⟩ => ⟨S16x32, .f32⟩
  | .hbm, ⟨62, _⟩ => ⟨S16x32, .f32⟩
  | .hbm, ⟨63, _⟩ => ⟨S_, .f32⟩
  | .hbm, ⟨64, _⟩ => ⟨S16x32, .f32⟩
  | .hbm, ⟨65, _⟩ => ⟨S16x32, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  shapeCasts_S16x3x1024x1024_S48x1048576 : S16x3x1024x1024.ShapeCasts S48x1048576
  bcast_S_S48x1048576 : S_.BroadcastsInDim S48x1048576 (![] : Fin 0 → Fin S48x1048576.rank)
  bcast_S48_S48x1_0 : S48.BroadcastsInDim S48x1 (![0] : Fin 1 → Fin S48x1.rank)
  bcast_S_S48x1 : S_.BroadcastsInDim S48x1 (![] : Fin 0 → Fin S48x1.rank)
  bcast_S48x1_S48x1048576_0_1 : S48x1.BroadcastsInDim S48x1048576 (![0, 1] : Fin 2 → Fin S48x1048576.rank)
  shapeCasts_S48x1048576_S50331648 : S48x1048576.ShapeCasts S50331648
  bcast_S_S3072 : S_.BroadcastsInDim S3072 (![] : Fin 0 → Fin S3072.rank)
  bcast_S_S50331648 : S_.BroadcastsInDim S50331648 (![] : Fin 0 → Fin S50331648.rank)
  bcast_S50331648_S50331648x1_0 : S50331648.BroadcastsInDim S50331648x1 (![0] : Fin 1 → Fin S50331648x1.rank)
  shapeCasts_S3072_S16x192 : S3072.ShapeCasts S16x192
  slices_S28864_S24576_0 : S28864.Slices ![0] S24576
  shapeCasts_S24576_S192x128 : S24576.ShapeCasts S192x128
  slices_S28864_S128_24576 : S28864.Slices ![24576] S128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  slices_S28864_S4096_24704 : S28864.Slices ![24704] S4096
  shapeCasts_S4096_S128x32 : S4096.ShapeCasts S128x32
  slices_S28864_S32_28800 : S28864.Slices ![28800] S32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  slices_S28864_S1_28832 : S28864.Slices ![28832] S1
  shapeCasts_S1_S_ : S1.ShapeCasts S_
  bcast_S_S16x32 : S_.BroadcastsInDim S16x32 (![] : Fin 0 → Fin S16x32.rank)
  scatter_S3072_S50331648x1_S50331648_n_0_0_1_wf : ScatterDims.WF S3072 S50331648x1 S50331648 [] [0] [0] 1
  dot_S16x192_S192x128_S16x128_1_0_0_1_n_n_wf : DotDims.WF S16x192 S192x128 S16x128 [1] [0] [0] [1] [] []
  dot_S16x128_S128x32_S16x32_1_0_0_1_n_n_wf : DotDims.WF S16x128 S128x32 S16x32 [1] [0] [0] [1] [] []

variable [Facts₀]

def scatter_S3072_S50331648x1_S50331648_n_0_0_1 : ScatterDims S3072 S50331648x1 S50331648 where
  updateWindowDims := []
  insertedWindowDims := [0]
  scatterDimsToOperandDims := [0]
  indexVectorDim := 1
  wf := scatter_S3072_S50331648x1_S50331648_n_0_0_1_wf
def dot_S16x192_S192x128_S16x128_1_0_0_1_n_n : DotDims S16x192 S192x128 S16x128 where
  lhsContracting := [1]
  rhsContracting := [0]
  lhsNonContracting := [0]
  rhsNonContracting := [1]
  lhsBatch := []
  rhsBatch := []
  wf := dot_S16x192_S192x128_S16x128_1_0_0_1_n_n_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf

class Facts : Prop extends Facts₀ where

variable [Facts]
-- ==== Proof.HistSpec.lean ====
/-
  The per-channel histogram both programs compute, as one function of the image.
  A pixel value x falls in bin `binWord x`: x times 64, truncated to a 32-bit integer, clipped to [0, 63].
  `hist x n c b` counts, as an extended real, the pixels of image n, channel c, whose bin is b; `histArr x`
  lays the counts out as the 16 × 192 feature array, channel-major (column 64·c + b).
  Also here: the float patterns 0.0 and 1.0 as extended reals.
-/
import Idealize.ShloMosaic.PureOps.Ideal
import Idealize.ShloMosaic.PureOps.Ideal.Laws
import Idealize.ShloMosaic.Lib.ValueIdx

noncomputable section

open scoped BigOperators

namespace Cert.HistSpec

open Idealize.ShloMosaic Idealize.ShloMosaic.ValueIdx

/-- The bin of one pixel value: the value scaled by 64, truncated toward zero to a 32-bit integer, clipped to [0, 63]. -/
def binWord (x : Ideal .f32) : BitVec 32 :=
  IntOp.minsi 63#32 (IntOp.maxsi 0#32 (FloatOps.fptosi 32 (FloatOps.mulf x (FloatOps.ofBits (F := Ideal) .f32 0x42800000#32))))

/-- One pixel's contribution to bin b: 1 if its bin is b, else 0. -/
def hit (x : Ideal .f32) (b : Fin 64) : EReal := if binWord x = BitVec.ofNat 32 b.val then 1 else 0

/-- The number of pixels of image n, channel c, in bin b. -/
def hist (x : FVec Ideal ⟨4, ![16, 3, 1024, 1024]⟩ .f32) (n : Fin 16) (c : Fin 3) (b : Fin 64) : EReal :=
  ∑ h : Fin 1024, ∑ w : Fin 1024, hit (x (ix4 n c h w)) b

/-- The feature array: row n, column 64·c + b holds `hist x n c b`. -/
def histArr (x : FVec Ideal ⟨4, ![16, 3, 1024, 1024]⟩ .f32) : FVec Ideal ⟨2, ![16, 192]⟩ .f32 :=
  fun j => hist x (j 0) ⟨(j 1).val / 64, by have h : (j 1).val < 192 := (j 1).isLt; show (j 1).val / 64 < 3; omega⟩
    ⟨(j 1).val % 64, Nat.mod_lt _ (by decide)⟩

/-- The float pattern of 1.0 denotes 1. -/
theorem ofBits_one : Ideal.ofBits .f32 0x3F800000#32 = 1 := by
  simp [Ideal.ofBits, Ideal.ieee, -EReal.coe_mul]; norm_num

end Cert.HistSpec

end
-- ==== Proof.HistMath.lean ====
/-
  Regrouping the pixels of one image channel.
  The kernel visits the 1024 rows of a channel as 4 row-tiles of 32 chunks of 8 rows, summing inside a chunk
  over the rows first and the lanes second; the histogram of the specification sums over rows and lanes
  directly. Addition of extended reals is commutative and associative, so the two sums agree: row
  256·h + 8·k + r runs over every row exactly once.
-/
import proofs.«118465_j50113678410581_2_alg».proof.Proof.HistSpec
import Mathlib.Algebra.BigOperators.Fin
import Mathlib.Logic.Equiv.Fin.Basic

noncomputable section

open scoped BigOperators

namespace Cert.HistSpec

open Idealize.ShloMosaic Idealize.ShloMosaic.ValueIdx

/-- A sum over n·m consecutive numbers, grouped into n runs of m. -/
theorem sum_split {M : Type*} [AddCommMonoid M] (n m : ℕ) (f : Fin (n * m) → M) :
    ∑ y : Fin (n * m), f y = ∑ a : Fin n, ∑ b : Fin m, f (finProdFinEquiv (a, b)) :=
  (Equiv.sum_comp finProdFinEquiv f).symm.trans (Fintype.sum_prod_type _)

/-- Row 256·h + 8·k + r of a channel. -/
def rowOf (h : Fin 4) (k : Fin 32) (r : Fin 8) : Fin 1024 := ⟨256 * h.val + 8 * k.val + r.val, by omega⟩

/-- Summing over row-tiles, chunks and rows within a chunk is summing over all 1024 rows. -/
theorem sum_rows {M : Type*} [AddCommMonoid M] (g : Fin 1024 → M) :
    ∑ h : Fin 4, ∑ k : Fin 32, ∑ r : Fin 8, g (rowOf h k r) = ∑ y : Fin 1024, g y := by
  have e1 := sum_split 4 256 (fun y : Fin (4 * 256) => g ⟨y.val, y.isLt⟩)
  have e2 : ∀ h : Fin 4, ∑ y' : Fin 256, g ⟨(finProdFinEquiv (h, y') : Fin (4 * 256)).val, (finProdFinEquiv (h, y')).isLt⟩
      = ∑ k : Fin 32, ∑ r : Fin 8, g (rowOf h k r) := by
    intro h
    have e3 := sum_split 32 8 (fun y' : Fin (32 * 8) => g ⟨(finProdFinEquiv (h, (⟨y'.val, y'.isLt⟩ : Fin 256)) : Fin (4 * 256)).val, (finProdFinEquiv (h, (⟨y'.val, y'.isLt⟩ : Fin 256))).isLt⟩)
    refine Eq.trans ?_ (e3.trans ?_)
    · rfl
    · refine Finset.sum_congr rfl fun k _ => Finset.sum_congr rfl fun r _ => congrArg g (Fin.ext ?_)
      show (finProdFinEquiv (h, (⟨(finProdFinEquiv (k, r) : Fin (32 * 8)).val, _⟩ : Fin 256)) : Fin (4 * 256)).val = 256 * h.val + 8 * k.val + r.val
      simp only [finProdFinEquiv_apply_val]
      omega
  calc ∑ h : Fin 4, ∑ k : Fin 32, ∑ r : Fin 8, g (rowOf h k r)
      = ∑ h : Fin 4, ∑ y' : Fin 256, g ⟨(finProdFinEquiv (h, y') : Fin (4 * 256)).val, (finProdFinEquiv (h, y')).isLt⟩ :=
        Finset.sum_congr rfl fun h _ => (e2 h).symm
    _ = ∑ y : Fin (4 * 256), g ⟨y.val, y.isLt⟩ := e1.symm
    _ = ∑ y : Fin 1024, g y := rfl

/-- The histogram as the kernel accumulates it: row-tiles, chunks, then lanes, then rows of the chunk. -/
def histTiled (x : FVec Ideal ⟨4, ![16, 3, 1024, 1024]⟩ .f32) (n : Fin 16) (c : Fin 3) (b : Fin 64) : EReal :=
  ∑ h : Fin 4, ∑ k : Fin 32, ∑ l : Fin 1024, ∑ r : Fin 8, hit (x (ix4 n c (rowOf h k r) l)) b

theorem histTiled_eq (x : FVec Ideal ⟨4, ![16, 3, 1024, 1024]⟩ .f32) (n : Fin 16) (c : Fin 3) (b : Fin 64) :
    histTiled x n c b = hist x n c b := by
  unfold histTiled hist
  rw [← sum_rows (fun y => ∑ w : Fin 1024, hit (x (ix4 n c y w)) b)]
  exact Finset.sum_congr rfl fun h _ => Finset.sum_congr rfl fun k _ => Finset.sum_comm

/-- The counts as the kernel's output array lays them out: image n, bin b, channel c. -/
def histT (x : FVec Ideal ⟨4, ![16, 3, 1024, 1024]⟩ .f32) : FVec Ideal ⟨3, ![16, 64, 3]⟩ .f32 :=
  fun j => hist x (j 0) (j 2) (j 1)

end Cert.HistSpec

end
-- ==== Proof.Tail.lean ====
/-
  The part the two programs share: the two-layer perceptron on the 16 × 192 histogram features.
  Both programs end with the same operations on the feature array and the parameter vector: a matrix product plus bias,
  a maximum with 0, a second matrix product plus bias, and 1 / (1 + exp(−(g + ·))) with g one more parameter. Here that
  chain is one function `mlp`; the reference applies it to its feature array, and the kernel's program applies it to
  its histogram output transposed and flattened, which is the same feature array.
-/
import proofs.«118465_j50113678410581_2_alg».proof.Proof.Gen.KernelIdeal.Frame
import proofs.«118465_j50113678410581_2_alg».proof.Proof.Gen.ReferenceIdeal.Read
import proofs.«118465_j50113678410581_2_alg».proof.Proof.HistMath
import Idealize.ShloMosaic.Lib.ValueIdx
import Idealize.ShloMosaic.Lib.ValueLayout
import Idealize.ShloMosaic.Lib.Pipeline.Value

noncomputable section

open scoped BigOperators

namespace Cert.Tail

open Idealize.ShloMosaic Idealize.ShloMosaic.ValueIdx Cert.HistSpec

/-! ## The shared chain -/

section Reference

open Cert.ReferenceIdeal Cert.ReferenceIdeal.Gen Cert.ReferenceIdeal.Read

/-- The perceptron on a feature array h and the parameter vector x1: σ(g + relu(h·W₁ + b₁)·W₂ + b₂), with W₁, b₁, W₂, b₂ and
    g consecutive slices of x1 and σ(y) = 1 / (1 + exp(−y)). -/
def mlp (h : FVec Ideal S16x192 .f32) (x1 : FVec Ideal S28864 .f32) : FVec Ideal S16x32 .f32 :=
  Host.divf (F := Ideal) (broadcastInDim S16x32 ![] bcast_S_S16x32 (constant (F := Ideal) S_ .f32 0x3F800000#32))
    (addf (F := Ideal) (broadcastInDim S16x32 ![] bcast_S_S16x32 (constant (F := Ideal) S_ .f32 0x3F800000#32))
      (Host.exp (F := Ideal) (Host.negf (F := Ideal)
        (addf (F := Ideal)
          (broadcastInDim S16x32 ![] bcast_S_S16x32
            (shapeCast _ (extractStridedSlice S1 ![28832] x1 slices_S28864_S1_28832) shapeCasts_S1_S_))
          (addf (F := Ideal)
            (Host.dotGeneral (F := Ideal) dot_S16x128_S128x32_S16x32_1_0_0_1_n_n none
              (maximumf (F := Ideal)
                (addf (F := Ideal)
                  (Host.dotGeneral (F := Ideal) dot_S16x192_S192x128_S16x128_1_0_0_1_n_n none h
                    (shapeCast _ (extractStridedSlice S24576 ![0] x1 slices_S28864_S24576_0) shapeCasts_S24576_S192x128))
                  (broadcastInDim S16x128 ![0, 1] bcast_S1x128_S16x128_0_1
                    (broadcastInDim S1x128 ![1] bcast_S128_S1x128_1
                      (extractStridedSlice S128 ![24576] x1 slices_S28864_S128_24576))))
                (broadcastInDim S16x128 ![] bcast_S_S16x128 (constant (F := Ideal) S_ .f32 0x00000000#32)))
              (shapeCast _ (extractStridedSlice S4096 ![24704] x1 slices_S28864_S4096_24704) shapeCasts_S4096_S128x32))
            (broadcastInDim S16x32 ![0, 1] bcast_S1x32_S16x32_0_1
              (broadcastInDim S1x32 ![1] bcast_S32_S1x32_1
                (extractStridedSlice S32 ![28800] x1 slices_S28864_S32_28800))))))))

/-- The reference's result is the chain applied to its feature array. -/
theorem ref_tail (x0 : FVec Ideal S16x3x1024x1024 .f32) (x1 : FVec Ideal S28864 .f32) :
    val_main_v46 (F := Ideal) x0 x1 = mlp (val_main_v21 (F := Ideal) x0) x1 := by
  unfold mlp val_main_v46 val_main_v45 val_main_cst_7 val_main_v44 val_main_v43 val_main_cst_6 val_main_v42 val_main_v41
    val_main_v40 val_main_v39 val_main_v38 val_main_v37 val_main_v36 val_main_v35 val_main_v34 val_main_v33 val_main_v32
    val_main_v31 val_main_v30 val_main_v29 val_main_call1_v0 val_main_call1_cst val_main_v28 val_main_v27 val_main_v26
    val_main_v25 val_main_v24 val_main_v23 val_main_v22
  rfl

end Reference

/-! ## The kernel program's feature array -/

section Kernel

open Cert.KernelIdeal Cert.KernelIdeal.Gen Idealize.ShloMosaic.TcCoe Idealize.SL.Sem

/-- The kernel's counts, laid out (image, bin, channel), with the last two axes swapped and then flattened, are the feature
    array: column 64·c + b of row n holds the count of image n, channel c, bin b. -/
theorem feat_eq (x : FVec Ideal S16x3x1024x1024 .f32) :
    shapeCast S16x192 (transpose S16x3x64 [0, 2, 1] (histT x) transposes_S16x64x3_S16x3x64_0_2_1) shapeCasts_S16x3x64_S16x192
      = histArr x := by
  funext j
  obtain ⟨n, k, rfl⟩ : ∃ (n : Fin 16) (k : Fin 192), j = ix2 n k := ⟨j 0, j 1, eq_ix2 j⟩
  refine (shapeCast_apply _ shapeCasts_S16x3x64_S16x192 (ix2 n k)
    (ix3 n (⟨k.val / 64, by omega⟩ : Fin 3) (⟨k.val % 64, by omega⟩ : Fin 64)) ?_).trans ?_
  · rw [Shape.rowMajor_val_three, Shape.rowMajor_val_two]
    show (n.val * 3 + k.val / 64) * 64 + k.val % 64 = n.val * 192 + k.val
    omega
  · exact transpose_ix3_021_apply (histT x) transposes_S16x64x3_S16x3x64_0_2_1 n _ _

/-! ## The kernel program's result -/

/-- After the region, the program's remaining operations turn the region's output — the counts laid out (image, bin,
    channel) — into the feature array and apply the chain to it and to the parameter vector. -/
theorem tail_v27 (m : (ℓ : Loc nD τ sig) → Buf (Elt Ideal) ℓ) (c : Dev nD)
    (hfinal : (dats m 0 c).arrAt 1 cfg0.N
      = (histT (m ((c.tc : Thread nD τ).loc main_arg0)) : Buf (Elt Ideal) ((c.tc : Thread nD τ).loc main_v0))) :
    Pipeline.afterTail₀ cfgs (dats m) 0 (V0 m) [hostOps1, hostOps1_1, hostOps1_2] c main_v27
      = mlp (histArr (m ((c.tc : Thread nD τ).loc main_arg0))) (m ((c.tc : Thread nD τ).loc main_arg1)) := by
  have h0 : Pipeline.withArrays (cfgs 0).spec c (V0 m c) (fun w => (dats m 0 c).arrAt w (cfgs 0).N) (Proc.devRef .tc main_v0)
      = histT (m ((c.tc : Thread nD τ).loc main_arg0)) :=
    (Pipeline.withArrays_arr spec0 launch0.win.arr_inj c _ _ 1).trans hfinal
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  unfold Pipeline.afterTail₀
  generalize Pipeline.withArrays (cfgs 0).spec c (V0 m c) (fun w => (dats m 0 c).arrAt w (cfgs 0).N) = W at h0 h1 ⊢
  simp only [hostOps1, hostOps1_1, hostOps1_2, List.flatten_cons, List.flatten_nil, List.append_nil, List.cons_append, List.nil_append]
  show StableHlo.after _ _ (Proc.devRef .tc main_v27) = _
  after_results
  refine Eq.trans (b := mlp (shapeCast S16x192 (transpose S16x3x64 [0, 2, 1] (W (Proc.devRef .tc main_v0))
    transposes_S16x64x3_S16x3x64_0_2_1) shapeCasts_S16x3x64_S16x192) (W (Proc.devRef .tc main_arg1))) rfl ?_
  rw [h0, h1, feat_eq]

/-- The kernel program runs, ends with the chain applied to the histogram features of its image, and leaves its arguments
    as they were — given that the region's output array ends at the counts. -/
theorem kernel_run (m : (ℓ : Loc nD τ sig) → Buf (Elt Ideal) ℓ) (ρ : Dev nD → PrngReg)
    (hfinal : ∀ c : Dev nD, (dats m 0 c).arrAt 1 cfg0.N
      = (histT (m ((c.tc : Thread nD τ).loc main_arg0)) : Buf (Elt Ideal) ((c.tc : Thread nD τ).loc main_v0))) :
    θ_run (defs (F := Ideal)) (onTc (τ := τ) (main (F := Ideal))) ⟨m, fun _ => 0, ρ⟩ (fun r => ∀ c : Dev nD,
      r.2.mem ((c.tc : Thread nD τ).loc main_v27)
          = mlp (histArr (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans (tail_v27 m c (hfinal c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Kernel

end Cert.Tail

end
-- ==== Proof.RefHist.lean ====
/-
  The reference's histogram stage, read as a function of the image.
  The reference adds 1 into a zero vector of length 3072 at position 64·(3n + c) + bin for every pixel (n, c, h, w);
  element (n, 64·c + b) of the result is therefore the number of pixels of image n, channel c, whose bin is b.
-/
import proofs.«118465_j50113678410581_2_alg».proof.Proof.Gen.ReferenceIdeal.Read
import proofs.«118465_j50113678410581_2_alg».proof.Proof.HistSpec
import Idealize.ShloMosaic.Lib.ValueIdx
import Idealize.ShloMosaic.PureOps.Ideal.Laws

noncomputable section

open scoped BigOperators

namespace Cert.RefHist

open Idealize.ShloMosaic Idealize.ShloMosaic.ValueIdx
open Cert.ReferenceIdeal Cert.ReferenceIdeal.Gen Cert.ReferenceIdeal.Read Cert.HistSpec

/-! ## Where one update lands -/

/-- The scatter's dimension numbers: one scalar update per scatter index, the index naming a position of the vector. -/
abbrev dS : ScatterDims S3072 S50331648x1 S50331648 := scatter_S3072_S50331648x1_S50331648_n_0_0_1

/-- The start of update p's window is the p-th scatter index, read signed. -/
theorem start_eq (p : Fin 50331648) (idx : IVec S50331648x1 32) :
    dS.start (ix1 p) idx 0 = (idx (ix2 p (0 : Fin 1))).toInt := by
  unfold ScatterDims.start
  rw [dif_pos (show (0 : Fin 1) ∈ dS.scatterDimsToOperandDims from List.mem_singleton.mpr rfl)]
  have hsi : dS.siIdx (ix1 p) ⟨List.idxOf (0 : Fin 1) dS.scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- An update is a scalar: its window coordinate is 0. -/
theorem window_eq (p : Fin 50331648) : dS.window (ix1 p) 0 = 0 := by
  unfold ScatterDims.window
  rw [dif_neg (by decide)]

/-- Update p lands on element i exactly when the p-th scatter index, read signed, is i. -/
theorem resultIdx_iff (p : Fin 50331648) (idx : IVec S50331648x1 32) (i : Fin 3072) :
    dS.resultIdx? (ix1 p) idx = some (ix1 i) ↔ (idx (ix2 p (0 : Fin 1))).toInt = (i.val : Int) := by
  unfold ScatterDims.resultIdx?
  have hi : i.val < 3072 := i.isLt
  split
  · rename_i h
    have h0 := h 0
    rw [start_eq, window_eq] at h0
    constructor
    · intro he
      have he' := congrFun (Option.some.inj he) 0
      have he'' : (dS.start (ix1 p) idx 0 + ((dS.window (ix1 p) 0 : Nat) : Int)).toNat = i.val := congrArg Fin.val he'
      rw [start_eq, window_eq] at he''
      omega
    · intro he
      refine congrArg some ?_
      funext a
      obtain rfl : a = 0 := Subsingleton.elim _ _
      refine Fin.ext ?_
      show (dS.start (ix1 p) idx 0 + ((dS.window (ix1 p) 0 : Nat) : Int)).toNat = i.val
      rw [start_eq, window_eq]
      omega
  · rename_i h
    constructor
    · intro he; exact absurd he (by simp)
    · intro he
      exfalso; apply h
      intro a
      obtain rfl : a = 0 := Subsingleton.elim _ _
      rw [start_eq, window_eq]
      show 0 ≤ _ ∧ _ < ((3072 : Nat) : Int)
      omega

/-! ## Words -/

/-- A word clipped to [0, 63] is at most 63 as a natural number. -/
theorem clip_toNat_le (v : BitVec 32) : (IntOp.minsi 63#32 (IntOp.maxsi 0#32 v)).toNat ≤ 63 := by
  unfold IntOp.minsi IntOp.maxsi
  by_cases h1 : v.slt 0#32 = true
  · rw [if_pos h1]; decide
  · rw [if_neg h1]
    by_cases h2 : (63#32 : BitVec 32).slt v = true
    · rw [if_pos h2]; decide
    · rw [if_neg h2]
      simp only [BitVec.slt, decide_eq_true_eq] at h1 h2
      have e0 : (0#32 : BitVec 32).toInt = 0 := by decide
      have e63 : (63#32 : BitVec 32).toInt = 63 := by decide
      rw [e0] at h1; rw [e63] at h2
      have hlt := v.isLt
      rw [BitVec.toInt_eq_toNat_cond] at h1 h2
      split_ifs at h1 h2 <;> omega

/-- The bin of a pixel value is at most 63. -/
theorem binWord_le (x : Ideal .f32) : (binWord x).toNat ≤ 63 := clip_toNat_le _

/-- The flat position bin + 64·row as a 32-bit word, for a bin at most 63 and a row below 48: no overflow. -/
theorem flat_toNat (b : BitVec 32) (hb : b.toNat ≤ 63) (row : Nat) (hrow : row < 48) :
    (IntOp.addi b (IntOp.muli (BitVec.ofNat 32 row) 64#32)).toNat = b.toNat + 64 * row := by
  unfold IntOp.addi IntOp.muli
  simp only [BitVec.toNat_add, BitVec.toNat_mul, BitVec.toNat_ofNat]
  omega

/-- The wrap of a negative position is inactive: the position is not negative, and read signed it is bin + 64·row. -/
theorem flat_select_toInt (b : BitVec 32) (hb : b.toNat ≤ 63) (row : Nat) (hrow : row < 48) :
    (Scalar.select (IntOp.cmpi .slt (IntOp.addi b (IntOp.muli (BitVec.ofNat 32 row) 64#32)) 0#32)
      (IntOp.addi (IntOp.addi b (IntOp.muli (BitVec.ofNat 32 row) 64#32)) 3072#32)
      (IntOp.addi b (IntOp.muli (BitVec.ofNat 32 row) 64#32))).toInt = ((b.toNat + 64 * row : Nat) : Int) := by
  have hW := flat_toNat b hb row hrow
  generalize IntOp.addi b (IntOp.muli (BitVec.ofNat 32 row) 64#32) = W at hW ⊢
  have hWi : W.toInt = ((b.toNat + 64 * row : Nat) : Int) := by
    rw [BitVec.toInt_eq_toNat_cond, if_pos (by omega), hW]
  have hns : W.slt 0#32 = false := by
    simp only [BitVec.slt, decide_eq_false_iff_not]
    have e0 : (0#32 : BitVec 32).toInt = 0 := by decide
    rw [e0, hWi]; omega
  unfold IntOp.cmpi Scalar.select
  simp only [hns]
  rw [if_neg (by decide)]
  exact hWi

/-! ## The scatter index of one pixel -/

/-- The position of pixel (n, c, h, w) in the flattened image. -/
abbrev pix (n : Fin 16) (c : Fin 3) (h w : Fin 1024) : Fin 50331648 :=
  ⟨((n.val * 3 + c.val) * 1024 + h.val) * 1024 + w.val, by omega⟩

/-- The scatter index of pixel (n, c, h, w): its bin plus 64·(3n + c), wrapped if negative. -/
theorem v18_at (x0 : FVec Ideal S16x3x1024x1024 .f32) (n : Fin 16) (c : Fin 3) (h w : Fin 1024) :
    val_main_v18 (F := Ideal) x0 (ix2 (pix n c h w) (0 : Fin 1)) =
      Scalar.select
        (IntOp.cmpi .slt (IntOp.addi (binWord (x0 (ix4 n c h w))) (IntOp.muli (BitVec.ofNat 32 (n.val * 3 + c.val)) 64#32)) 0#32)
        (IntOp.addi (IntOp.addi (binWord (x0 (ix4 n c h w))) (IntOp.muli (BitVec.ofNat 32 (n.val * 3 + c.val)) 64#32)) 3072#32)
        (IntOp.addi (binWord (x0 (ix4 n c h w))) (IntOp.muli (BitVec.ofNat 32 (n.val * 3 + c.val)) 64#32)) := by
  have e18 : idx_main_v18 (ix2 (pix n c h w) (0 : Fin 1)) = ix1 (pix n c h w) := by
    funext a; match a with | ⟨0, _⟩ => rfl
  have e11 : idx_main_v11 (ix1 (pix n c h w))
      = ix2 (⟨n.val * 3 + c.val, by omega⟩ : Fin 48) (⟨h.val * 1024 + w.val, by omega⟩ : Fin 1048576) := by
    funext a; refine Fin.ext ?_
    match a with
    | ⟨0, _⟩ =>
      show (((n.val * 3 + c.val) * 1024 + h.val) * 1024 + w.val) / 1048576 = n.val * 3 + c.val
      omega
    | ⟨1, _⟩ =>
      show (((n.val * 3 + c.val) * 1024 + h.val) * 1024 + w.val) % 1048576 = h.val * 1024 + w.val
      omega
  have e0 : idx_main_v0 (ix2 (⟨n.val * 3 + c.val, by omega⟩ : Fin 48) (⟨h.val * 1024 + w.val, by omega⟩ : Fin 1048576))
      = ix4 n c h w := by
    funext a; refine Fin.ext ?_
    match a with
    | ⟨0, _⟩ =>
      show ((n.val * 3 + c.val) * 1048576 + (h.val * 1024 + w.val)) / 3145728 = n.val
      omega
    | ⟨1, _⟩ =>
      show ((n.val * 3 + c.val) * 1048576 + (h.val * 1024 + w.val)) / 1048576 % 3 = c.val
      omega
    | ⟨2, _⟩ =>
      show ((n.val * 3 + c.val) * 1048576 + (h.val * 1024 + w.val)) / 1024 % 1024 = h.val
      omega
    | ⟨3, _⟩ =>
      show ((n.val * 3 + c.val) * 1048576 + (h.val * 1024 + w.val)) % 1024 = w.val
      omega
  simp only [val_main_v18_apply, e18, val_main_v17_apply, val_main_v14_apply, val_main_v16_apply, val_main_v11_apply, e11,
    val_main_v13_apply, val_main_c_3_apply, val_main_v15_apply, val_main_c_4_apply,
    val_main_v10_apply, val_main_v4_apply, val_main_call0_v4_apply, val_main_call0_v3_apply, val_main_c_0_apply,
    val_main_call0_v2_apply, val_main_call0_v1_apply, val_main_call0_v0_apply, val_main_c_apply,
    val_main_v3_apply, val_main_v2_apply, val_main_v0_apply, e0, val_main_v1_apply, val_main_cst_apply,
    val_main_v9_apply, val_main_v8_apply, val_main_v6_apply, val_main_v5_apply, val_main_v7_apply, val_main_c_1_apply]
  rfl

/-! ## Pixels and update positions -/

/-- Pixels (n, c, h, w) and update positions are in bijection: the position is the pixel's row-major rank. -/
def pixEquiv : (Fin 16 × Fin 3 × Fin 1024 × Fin 1024) ≃ S50331648.Idx where
  toFun q := ix1 (pix q.1 q.2.1 q.2.2.1 q.2.2.2)
  invFun j :=
    (⟨(j 0).val / 3145728, by have hj : (j 0).val < 50331648 := (j 0).isLt; omega⟩,
     ⟨(j 0).val / 1048576 % 3, by omega⟩,
     ⟨(j 0).val / 1024 % 1024, by omega⟩,
     ⟨(j 0).val % 1024, by omega⟩)
  left_inv := by
    rintro ⟨n, c, h, w⟩
    refine Prod.ext (Fin.ext ?_) (Prod.ext (Fin.ext ?_) (Prod.ext (Fin.ext ?_) (Fin.ext ?_)))
    · show (((n.val * 3 + c.val) * 1024 + h.val) * 1024 + w.val) / 3145728 = n.val
      omega
    · show (((n.val * 3 + c.val) * 1024 + h.val) * 1024 + w.val) / 1048576 % 3 = c.val
      omega
    · show (((n.val * 3 + c.val) * 1024 + h.val) * 1024 + w.val) / 1024 % 1024 = h.val
      omega
    · show (((n.val * 3 + c.val) * 1024 + h.val) * 1024 + w.val) % 1024 = w.val
      omega
  right_inv := by
    intro j
    funext a
    match a with
    | ⟨0, _⟩ =>
      refine Fin.ext ?_
      have hj : (j 0).val < 50331648 := (j 0).isLt
      show ((((j 0).val / 3145728) * 3 + (j 0).val / 1048576 % 3) * 1024 + (j 0).val / 1024 % 1024) * 1024
        + (j 0).val % 1024 = (j 0).val
      omega

/-- The update of pixel (n', c', h, w) lands on element i exactly when its bin plus 64·(3n' + c') is i. -/
theorem lands_iff (x0 : FVec Ideal S16x3x1024x1024 .f32) (n' : Fin 16) (c' : Fin 3) (h w : Fin 1024) (i : Fin 3072) :
    dS.resultIdx? (ix1 (pix n' c' h w)) (val_main_v18 (F := Ideal) x0) = some (ix1 i) ↔
      (binWord (x0 (ix4 n' c' h w))).toNat + 64 * (n'.val * 3 + c'.val) = i.val := by
  rw [resultIdx_iff, v18_at, flat_select_toInt _ (binWord_le _) _ (by omega)]
  exact Int.natCast_inj

/-! ## Counting -/

/-- bin + 64·(3n' + c') = 192·n + k pins the image, the channel and the bin. -/
theorem pos_iff (bw n' c' n k : Nat) (hb : bw ≤ 63) (hc : c' < 3) (hk : k < 192) :
    bw + 64 * (n' * 3 + c') = n * 192 + k ↔ n' = n ∧ c' = k / 64 ∧ bw = k % 64 := by omega

/-- A word equals a small number's word exactly when it is that number. -/
theorem word_eq_iff (v : BitVec 32) (m : Nat) (hm : m < 64) : v = BitVec.ofNat 32 m ↔ v.toNat = m := by
  constructor
  · rintro rfl
    rw [BitVec.toNat_ofNat]; omega
  · intro h
    apply BitVec.eq_of_toNat_eq
    rw [h, BitVec.toNat_ofNat]; omega

/-- Summing, over all pixels, 1 for each whose position is 192·n + k counts the pixels of image n, channel k / 64, in bin k % 64. -/
theorem count_eq (x0 : FVec Ideal S16x3x1024x1024 .f32) (n : Fin 16) (k : Fin 192) :
    (∑ n' : Fin 16, ∑ c' : Fin 3, ∑ h : Fin 1024, ∑ w : Fin 1024,
      if (binWord (x0 (ix4 n' c' h w))).toNat + 64 * (n'.val * 3 + c'.val) = n.val * 192 + k.val then (1 : EReal) else 0)
      = hist x0 n ⟨k.val / 64, by omega⟩ ⟨k.val % 64, by omega⟩ := by
  rw [Finset.sum_eq_single n]
  · rw [Finset.sum_eq_single (⟨k.val / 64, by omega⟩ : Fin 3)]
    · unfold hist hit
      refine Finset.sum_congr rfl fun h _ => Finset.sum_congr rfl fun w _ => ?_
      refine if_congr ?_ rfl rfl
      rw [word_eq_iff _ _ (by omega), pos_iff _ _ _ _ _ (binWord_le _) (by omega) k.isLt]
      exact ⟨fun hh => hh.2.2, fun hh => ⟨rfl, rfl, hh⟩⟩
    · intro c' _ hc
      refine Finset.sum_eq_zero fun h _ => Finset.sum_eq_zero fun w _ => if_neg ?_
      rw [pos_iff _ _ _ _ _ (binWord_le _) c'.isLt k.isLt]
      intro hh
      exact hc (Fin.ext hh.2.1)
    · intro hn; exact absurd (Finset.mem_univ _) hn
  · intro n' _ hn
    refine Finset.sum_eq_zero fun c' _ => Finset.sum_eq_zero fun h _ => Finset.sum_eq_zero fun w _ => if_neg ?_
    rw [pos_iff _ _ _ _ _ (binWord_le _) c'.isLt k.isLt]
    intro hh
    exact hn (Fin.ext hh.1)
  · intro hn; exact absurd (Finset.mem_univ _) hn

/-! ## The histogram stage -/

/-- Every update is 1. -/
theorem v19_one (j : S50331648.Idx) : val_main_v19 (F := Ideal) j = 1 := by
  rw [val_main_v19_apply, val_main_cst_5_apply, Ideal.ofBits_def]
  exact ofBits_one

/-- The vector the updates are added into is 0 everywhere. -/
theorem v12_zero (i : S3072.Idx) : val_main_v12 (F := Ideal) i = 0 := by
  rw [val_main_v12_apply, val_main_cst_2_apply, Ideal.ofBits_def]
  exact Ideal.ofBits_zero_f32

/-- The scatter stage is the exact accumulation of the updates into the zero vector. -/
theorem v20_eq (x0 : FVec Ideal S16x3x1024x1024 .f32) :
    val_main_v20 (F := Ideal) x0 = Ideal.hostScatterAdd dS (val_main_v12 (F := Ideal)) (val_main_v18 (F := Ideal) x0)
      (val_main_v19 (F := Ideal)) := rfl

/-- An accumulating scatter at one element: the element plus, over all updates, the update if it lands there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j, if d.resultIdx? j idx = some i then upd j else 0 := by
  unfold Ideal.hostScatterAdd
  rw [Finset.sum_filter]

/-- The reference's feature array is the histogram array of the image. -/
theorem val_v21_eq (x0 : FVec Ideal S16x3x1024x1024 .f32) :
    val_main_v21 (F := Ideal) x0 = histArr x0 := by
  funext j
  obtain ⟨n, k, rfl⟩ : ∃ (n : Fin 16) (k : Fin 192), j = ix2 n k := ⟨j 0, j 1, eq_ix2 j⟩
  have e21 : idx_main_v21 (ix2 n k) = ix1 (⟨n.val * 192 + k.val, by omega⟩ : Fin 3072) := by
    funext a; match a with | ⟨0, _⟩ => rfl
  rw [val_main_v21_apply, e21]
  rw [v20_eq, hostScatterAdd_apply, v12_zero, zero_add, ← Equiv.sum_comp pixEquiv, Fintype.sum_prod_type]
  refine Eq.trans ?_ (count_eq x0 n k)
  refine Finset.sum_congr rfl fun n' _ => ?_
  rw [Fintype.sum_prod_type]
  refine Finset.sum_congr rfl fun c' _ => ?_
  rw [Fintype.sum_prod_type]
  refine Finset.sum_congr rfl fun h _ => Finset.sum_congr rfl fun w _ => ?_
  have hq : pixEquiv (n', c', h, w) = ix1 (pix n' c' h w) := rfl
  rw [hq, v19_one]
  exact if_congr (lands_iff x0 n' c' h w _) rfl rfl

end Cert.RefHist

end
-- ==== Proof.KPay.lean ====
/-
  One chunk of eight image rows, read at the ideal instance.
  The kernel's loop body takes an 8 × 1024 chunk of one channel, computes every pixel's bin word, compares it
  with each of the 64 bin numbers, turns the comparison into the float 1 or 0, and sums first over the eight
  rows and then over the 1024 lanes. At bin b the result is the carried value plus the number of the chunk's
  pixels whose bin is b.
-/
import proofs.«118465_j50113678410581_2_alg».proof.Proof.Gen.KernelIdeal.Skeleton
import proofs.«118465_j50113678410581_2_alg».proof.Proof.HistSpec
import Idealize.ShloMosaic.Lib.Pipeline.Value
import Idealize.ShloMosaic.Lib.ValueIdx
import Idealize.ShloMosaic.PureOps.Ideal.Laws

noncomputable section

open scoped BigOperators

namespace Cert.KernelHist

open Idealize.ShloMosaic Idealize.ShloMosaic.ValueIdx Cert.KernelIdeal Cert.KernelIdeal.Gen Cert.HistSpec

/-- A bin word compared for equality with bin number b, widened to 32 bits and converted to a float, is the
    pixel's contribution to bin b. -/
theorem hit_word (w : BitVec 32) (b : Fin 64) :
    (FloatOps.sitofp (F := Ideal) .f32 ((IntOp.cmpi .eq w (BitVec.ofNat 32 b.val)).setWidth 32) : EReal)
      = if w = BitVec.ofNat 32 b.val then 1 else 0 := by
  have h1 : (BitVec.setWidth 32 (1 : BitVec 1)).toInt = 1 := by decide
  have h0 : (BitVec.setWidth 32 (0 : BitVec 1)).toInt = 0 := by decide
  by_cases h : w = BitVec.ofNat 32 b.val
  · have hb : (w == BitVec.ofNat 32 b.val) = true := by simpa using h
    rw [if_pos h]
    show (((BitVec.setWidth 32 (BitVec.ofBool (w == BitVec.ofNat 32 b.val))).toInt : ℝ) : EReal) = 1
    rw [hb, BitVec.ofBool_true, h1]; simp
  · have hb : (w == BitVec.ofNat 32 b.val) = false := by simpa using h
    rw [if_neg h]
    show (((BitVec.setWidth 32 (BitVec.ofBool (w == BitVec.ofNat 32 b.val))).toInt : ℝ) : EReal) = 0
    rw [hb, BitVec.ofBool_false, h0]; simp

/-- The bin words of a chunk, broadcast along the bin axis, read at (row r, any bin, lane l). -/
theorem bcast_read (X : IVec S8x1024 32) (idx : S8x64x1024.Idx) (r : Fin 8) (l : Fin 1024)
    (h0 : (idx 0).val = r.val) (h2 : (idx 2).val = l.val) :
    broadcastTo S8x64x1024 (shapeCast S8x1x1024 (shapeCast S8x1x1024 X shapeCasts_S8x1024_S8x1x1024) shapeCasts_S8x1x1024_S8x1x1024)
        broadcasts_S8x1x1024_S8x64x1024 idx = X (ix2 r l) := by
  refine (broadcastTo_apply _ broadcasts_S8x1x1024_S8x64x1024 idx (ix3 r (0 : Fin 1) l) ?_).trans ?_
  · intro a
    match a with
    | ⟨0, _⟩ => exact h0.symm
    | ⟨1, _⟩ => rfl
    | ⟨2, _⟩ => exact h2.symm
  · refine (congrFun (shapeCast_self _ shapeCasts_S8x1x1024_S8x1x1024) _).trans ?_
    refine shapeCast_apply X shapeCasts_S8x1024_S8x1x1024 (ix3 r (0 : Fin 1) l) (ix2 r l) ?_
    rw [Shape.rowMajor_val_two, Shape.rowMajor_val_three]
    show r.val * 1024 + l.val = (r.val * 1 + 0) * 1024 + l.val
    omega

/-- The bin-number vector holds b at every index whose bin coordinate is b. -/
theorem iota_read (idx : S8x64x1024.Idx) (b : Fin 64) (h1 : (idx 1).val = b.val) :
    iota .tc S8x64x1024 32 [1] iota_S8x64x1024_d1_w32 idx = BitVec.ofNat 32 b.val := by
  unfold iota
  simp only [List.foldl, Nat.zero_mul, Nat.zero_add]
  rw [← h1]

/-- The chunk's bin words: the loaded chunk scaled, truncated and clipped, at (row r, lane l). -/
theorem word_read (v : Vec Ideal S1x1x8x1024 .f32) (r : Fin 8) (l : Fin 1024) :
    minsi (broadcast S8x1024 63#32) (maxsi (broadcast S8x1024 0#32) (fptosi 32 (mulf (shapeCast S8x1024 v shapeCasts_S1x1x8x1024_S8x1024)
        (broadcast S8x1024 (Scalar.ofBits (F := Ideal) .f32 0x42800000#32))))) (ix2 r l)
      = binWord (v (ix4 (0 : Fin 1) (0 : Fin 1) r l)) := by
  have e : shapeCast S8x1024 v shapeCasts_S1x1x8x1024_S8x1024 (ix2 r l) = v (ix4 (0 : Fin 1) (0 : Fin 1) r l) :=
    shapeCast_apply v shapeCasts_S1x1x8x1024_S8x1024 (ix2 r l) (ix4 (0 : Fin 1) (0 : Fin 1) r l) (by
      rw [Shape.rowMajor_val_four, Shape.rowMajor_val_two]
      show ((0 * 1 + 0) * 8 + r.val) * 1024 + l.val = r.val * 1024 + l.val
      omega)
  exact (rfl : _ = binWord (shapeCast S8x1024 v shapeCasts_S1x1x8x1024_S8x1024 (ix2 r l))).trans (congrArg binWord e)

/-- The chunk's comparison tensor at (row r, bin b, lane l) is that pixel's contribution to bin b. -/
theorem onehot_read (v : Vec Ideal S1x1x8x1024 .f32) (idx : S8x64x1024.Idx) (r : Fin 8) (b : Fin 64) (l : Fin 1024)
    (h0 : (idx 0).val = r.val) (h1 : (idx 1).val = b.val) (h2 : (idx 2).val = l.val) :
    (sitofp .f32 (extui 32 (cmpi .eq
        (broadcastTo S8x64x1024 (shapeCast S8x1x1024 (shapeCast S8x1x1024
          (minsi (broadcast S8x1024 63#32) (maxsi (broadcast S8x1024 0#32) (fptosi 32 (mulf (shapeCast S8x1024 v shapeCasts_S1x1x8x1024_S8x1024)
            (broadcast S8x1024 (Scalar.ofBits (F := Ideal) .f32 0x42800000#32))))))
          shapeCasts_S8x1024_S8x1x1024) shapeCasts_S8x1x1024_S8x1x1024) broadcasts_S8x1x1024_S8x64x1024)
        (iota .tc S8x64x1024 32 [1] iota_S8x64x1024_d1_w32)) natLt_1_32) : FVec Ideal S8x64x1024 .f32) idx
      = hit (v (ix4 (0 : Fin 1) (0 : Fin 1) r l)) b := by
  show FloatOps.sitofp (F := Ideal) .f32 ((IntOp.cmpi .eq (broadcastTo S8x64x1024 _ broadcasts_S8x1x1024_S8x64x1024 idx)
      (iota .tc S8x64x1024 32 [1] iota_S8x64x1024_d1_w32 idx)).setWidth 32) = _
  rw [bcast_read _ idx r l h0 h2, iota_read idx b h1, word_read v r l, hit_word]
  rfl

/-- The loop body's result at bin b: the carried value plus the chunk's count for bin b. -/
theorem pay5_apply (acc : FVec Ideal S64x1 .f32) (v : Vec Ideal S1x1x8x1024 .f32) (b : Fin 64) :
    k0_pay5 (F := Ideal) acc v (ix2 b (0 : Fin 1))
      = acc (ix2 b (0 : Fin 1)) + ∑ l : Fin 1024, ∑ r : Fin 8, hit (v (ix4 (0 : Fin 1) (0 : Fin 1) r l)) b := by
  unfold k0_pay5
  refine congrArg (acc (ix2 b (0 : Fin 1)) + ·) ?_
  refine (shapeCast_apply _ shapeCasts_S64_S64x1 (ix2 b (0 : Fin 1)) (ix1 b) ?_).trans ?_
  · rw [Shape.rowMajor_val_one, Shape.rowMajor_val_two]
    show b.val = b.val * 1 + 0
    omega
  refine (Ideal.multiReduction_add_single _ _ reduces_S64x1024_S64 _ _ (ix1 b)).trans ?_
  refine Finset.sum_congr rfl fun l _ => ?_
  refine (Ideal.multiReduction_add_single _ _ reduces_S8x64x1024_S64x1024 _ _ _).trans ?_
  refine Finset.sum_congr rfl fun r _ => ?_
  exact onehot_read v _ r b l rfl rfl rfl

end Cert.KernelHist

end
-- ==== Proof.KLoop.lean ====
/-
  The three counted loops of the kernel body, one per colour channel, read at the ideal instance.
  Each loop walks the 32 chunks of eight rows of its channel in the 256-row block and adds each chunk's
  per-bin counts to the value it carries; after n trips the carried value at bin b is the initial value
  plus the counts of chunks 0 … n-1.
-/
import proofs.«118465_j50113678410581_2_alg».proof.Proof.Gen.KernelIdeal.Loops
import proofs.«118465_j50113678410581_2_alg».proof.Proof.KPay
import Idealize.ShloMosaic.Lib.Pipeline.Value

noncomputable section

open scoped BigOperators

namespace Cert.KernelHist

open Idealize.ShloMosaic Idealize.ShloMosaic.ValueIdx Cert.KernelIdeal Cert.KernelIdeal.Gen Cert.HistSpec

/-- The pixels of chunk k (rows 8k … 8k+7) of channel cc of a 256-row block that fall in bin b. -/
def chunkCount (x0 : Vec Ideal S1x3x256x1024 .f32) (cc : Fin 3) (k : Fin 32) (b : Fin 64) : EReal :=
  ∑ l : Fin 1024, ∑ r : Fin 8, hit (x0 (ix4 (0 : Fin 1) cc (⟨8 * k.val + r.val, by omega⟩ : Fin 256) l)) b

/-- The same with the chunk number a natural number, zero past the last chunk. -/
def chunkCountN (x0 : Vec Ideal S1x3x256x1024 .f32) (cc : Fin 3) (k : ℕ) (b : Fin 64) : EReal :=
  if h : k < 32 then chunkCount x0 cc ⟨k, h⟩ b else 0

/-- The pixels of channel cc of the whole block that fall in bin b. -/
def tileCount (x0 : Vec Ideal S1x3x256x1024 .f32) (cc : Fin 3) (b : Fin 64) : EReal :=
  ∑ k : Fin 32, chunkCount x0 cc k b

theorem sum_chunkCountN (x0 : Vec Ideal S1x3x256x1024 .f32) (cc : Fin 3) (b : Fin 64) :
    ∑ k ∈ Finset.range 32, chunkCountN x0 cc k b = tileCount x0 cc b := by
  unfold tileCount
  rw [← Fin.sum_univ_eq_sum_range (fun k => chunkCountN x0 cc k b) 32]
  refine Finset.sum_congr rfl fun k _ => ?_
  unfold chunkCountN
  rw [dif_pos k.isLt]

/-- A load of the chunk at rows 8k … 8k+7 of channel cc from a staging buffer holding the block x0 reads the
    block there. -/
theorem chunk_read (x0 : Vec Ideal S1x3x256x1024 .f32) (arg2 : Memref sig .tc .vmem S1x3x256x1024 .f32) (harg2 : arg2.IsWhole)
    (off : Fin 4 → Nat) (inb : ∀ a, off a + S1x1x8x1024.size a ≤ S1x3x256x1024.size a) (cc : Fin 3) (k : Fin 32)
    (hoff : off = ![0, cc.val, 8 * k.val, 0]) (r : Fin 8) (l : Fin 1024) :
    View.readAt (Elt Ideal) arg2.view (Rect.unit (s := S1x3x256x1024) off S1x1x8x1024.size inb).toLoadRect (harg2.unread x0) (ix4 (0 : Fin 1) (0 : Fin 1) r l)
      = x0 (ix4 (0 : Fin 1) cc (⟨8 * k.val + r.val, by omega⟩ : Fin 256) l) := by
  rw [View.readAt_eq_ld, harg2.read_unread]
  subst hoff
  refine congrArg x0 (funext fun a => Fin.ext ?_)
  match a with
  | ⟨0, _⟩ => rfl
  | ⟨1, _⟩ => show cc.val + 1 * 0 = cc.val; omega
  | ⟨2, _⟩ => show 8 * k.val + 1 * r.val = 8 * k.val + r.val; omega
  | ⟨3, _⟩ => show 0 + 1 * l.val = l.val; omega

/-- Loop 1 has 32 trips. -/
theorem trips1 : k0_t1_loop.trips = 32 := by decide

/-- One trip of loop 1: the loop body's arithmetic applied to the carried value and the chunk the trip loads. -/
theorem trip1_eq (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (X : BufTy.Contents (Elt Ideal) arg2.view.ty) (k : Fin k0_t1_loop.trips) (acc : FVec Ideal S64x1 .f32) :
    tripR_k0_t1 (F := Ideal) 𝒱 c bd i arg2 harg2 arg3 harg3 arg4 harg4 X k acc
      = k0_pay5 (F := Ideal) acc (View.readAt (Elt Ideal) arg2.view (Rect.unit (s := S1x3x256x1024) (k0_off1 k) S1x1x8x1024.size (k0_off1_inb k)).toLoadRect X) := by
  unfold tripR_k0_t1 trip_k0_t1
  rfl

/-- Loop 1's carried value before trip n, at bin b: the initial value plus the counts of the chunks before n
    of channel 0. -/
theorem st1_apply (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (init : FVec Ideal S64x1 .f32) (b : Fin 64) :
    ∀ n, n ≤ 32 → st_k0_t1 (F := Ideal) 𝒱 c bd i arg2 harg2 arg3 harg3 arg4 harg4 (harg2.unread x0) init n (ix2 b (0 : Fin 1))
      = init (ix2 b (0 : Fin 1)) + ∑ k ∈ Finset.range n, chunkCountN x0 0 k b
  | 0, _ => by
    rw [Finset.range_zero, Finset.sum_empty, add_zero]; rfl
  | n + 1, hn => by
    have hk : n < k0_t1_loop.trips := by rw [trips1]; omega
    have hn32 : n < 32 := by omega
    refine (congrFun (st_k0_t1_succ (F := Ideal) 𝒱 c bd i arg2 harg2 arg3 harg3 arg4 harg4 (harg2.unread x0) init ⟨n, hk⟩) _).trans ?_
    rw [trip1_eq]
    refine (pay5_apply _ _ b).trans ?_
    rw [st1_apply 𝒱 c bd i arg2 harg2 arg3 harg3 arg4 harg4 x0 init b n (by omega), Finset.sum_range_succ, add_assoc]
    refine congrArg (init (ix2 b (0 : Fin 1)) + ·) (congrArg (∑ k ∈ Finset.range n, chunkCountN x0 0 k b + ·) ?_)
    unfold chunkCountN
    rw [dif_pos hn32]
    unfold chunkCount
    refine Finset.sum_congr rfl fun l _ => Finset.sum_congr rfl fun r _ => ?_
    exact congrArg (hit · b) (chunk_read x0 arg2 harg2 _ _ 0 ⟨n, hn32⟩ (k0_off1_eq ⟨n, hk⟩) r l)

/-- Loop 2 has 32 trips. -/
theorem trips2 : k0_t2_loop.trips = 32 := by decide

/-- One trip of loop 2: the loop body's arithmetic applied to the carried value and the chunk the trip loads. -/
theorem trip2_eq (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (X : BufTy.Contents (Elt Ideal) arg2.view.ty) (k : Fin k0_t2_loop.trips) (acc : FVec Ideal S64x1 .f32) :
    tripR_k0_t2 (F := Ideal) 𝒱 c bd i arg2 harg2 arg3 harg3 arg4 harg4 X k acc
      = k0_pay5 (F := Ideal) acc (View.readAt (Elt Ideal) arg2.view (Rect.unit (s := S1x3x256x1024) (k0_off2 k) S1x1x8x1024.size (k0_off2_inb k)).toLoadRect X) := by
  unfold tripR_k0_t2 trip_k0_t2
  rfl

/-- Loop 2's carried value before trip n, at bin b: the initial value plus the counts of the chunks before n
    of channel 1. -/
theorem st2_apply (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (init : FVec Ideal S64x1 .f32) (b : Fin 64) :
    ∀ n, n ≤ 32 → st_k0_t2 (F := Ideal) 𝒱 c bd i arg2 harg2 arg3 harg3 arg4 harg4 (harg2.unread x0) init n (ix2 b (0 : Fin 1))
      = init (ix2 b (0 : Fin 1)) + ∑ k ∈ Finset.range n, chunkCountN x0 1 k b
  | 0, _ => by
    rw [Finset.range_zero, Finset.sum_empty, add_zero]; rfl
  | n + 1, hn => by
    have hk : n < k0_t2_loop.trips := by rw [trips2]; omega
    have hn32 : n < 32 := by omega
    refine (congrFun (st_k0_t2_succ (F := Ideal) 𝒱 c bd i arg2 harg2 arg3 harg3 arg4 harg4 (harg2.unread x0) init ⟨n, hk⟩) _).trans ?_
    rw [trip2_eq]
    refine (pay5_apply _ _ b).trans ?_
    rw [st2_apply 𝒱 c bd i arg2 harg2 arg3 harg3 arg4 harg4 x0 init b n (by omega), Finset.sum_range_succ, add_assoc]
    refine congrArg (init (ix2 b (0 : Fin 1)) + ·) (congrArg (∑ k ∈ Finset.range n, chunkCountN x0 1 k b + ·) ?_)
    unfold chunkCountN
    rw [dif_pos hn32]
    unfold chunkCount
    refine Finset.sum_congr rfl fun l _ => Finset.sum_congr rfl fun r _ => ?_
    exact congrArg (hit · b) (chunk_read x0 arg2 harg2 _ _ 1 ⟨n, hn32⟩ (k0_off2_eq ⟨n, hk⟩) r l)

/-- Loop 3 has 32 trips. -/
theorem trips3 : k0_t3_loop.trips = 32 := by decide

/-- One trip of loop 3: the loop body's arithmetic applied to the carried value and the chunk the trip loads. -/
theorem trip3_eq (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (X : BufTy.Contents (Elt Ideal) arg2.view.ty) (k : Fin k0_t3_loop.trips) (acc : FVec Ideal S64x1 .f32) :
    tripR_k0_t3 (F := Ideal) 𝒱 c bd i arg2 harg2 arg3 harg3 arg4 harg4 X k acc
      = k0_pay5 (F := Ideal) acc (View.readAt (Elt Ideal) arg2.view (Rect.unit (s := S1x3x256x1024) (k0_off3 k) S1x1x8x1024.size (k0_off3_inb k)).toLoadRect X) := by
  unfold tripR_k0_t3 trip_k0_t3
  rfl

/-- Loop 3's carried value before trip n, at bin b: the initial value plus the counts of the chunks before n
    of channel 2. -/
theorem st3_apply (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (init : FVec Ideal S64x1 .f32) (b : Fin 64) :
    ∀ n, n ≤ 32 → st_k0_t3 (F := Ideal) 𝒱 c bd i arg2 harg2 arg3 harg3 arg4 harg4 (harg2.unread x0) init n (ix2 b (0 : Fin 1))
      = init (ix2 b (0 : Fin 1)) + ∑ k ∈ Finset.range n, chunkCountN x0 2 k b
  | 0, _ => by
    rw [Finset.range_zero, Finset.sum_empty, add_zero]; rfl
  | n + 1, hn => by
    have hk : n < k0_t3_loop.trips := by rw [trips3]; omega
    have hn32 : n < 32 := by omega
    refine (congrFun (st_k0_t3_succ (F := Ideal) 𝒱 c bd i arg2 harg2 arg3 harg3 arg4 harg4 (harg2.unread x0) init ⟨n, hk⟩) _).trans ?_
    rw [trip3_eq]
    refine (pay5_apply _ _ b).trans ?_
    rw [st3_apply 𝒱 c bd i arg2 harg2 arg3 harg3 arg4 harg4 x0 init b n (by omega), Finset.sum_range_succ, add_assoc]
    refine congrArg (init (ix2 b (0 : Fin 1)) + ·) (congrArg (∑ k ∈ Finset.range n, chunkCountN x0 2 k b + ·) ?_)
    unfold chunkCountN
    rw [dif_pos hn32]
    unfold chunkCount
    refine Finset.sum_congr rfl fun l _ => Finset.sum_congr rfl fun r _ => ?_
    exact congrArg (hit · b) (chunk_read x0 arg2 harg2 _ _ 2 ⟨n, hn32⟩ (k0_off3_eq ⟨n, hk⟩) r l)

/-- Loop 1 run from zero: after all 32 trips its value at bin b is the block's count for channel 0. -/
theorem st1_total (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (b : Fin 64) :
    st_k0_t1 (F := Ideal) 𝒱 c bd i arg2 harg2 arg3 harg3 arg4 harg4 (harg2.unread x0) (k0_pay4 (F := Ideal)) k0_t1_loop.trips (ix2 b (0 : Fin 1))
      = tileCount x0 0 b := by
  rw [trips1, st1_apply 𝒱 c bd i arg2 harg2 arg3 harg3 arg4 harg4 x0 _ b 32 le_rfl, sum_chunkCountN]
  show Ideal.ofBits .f32 0x00000000#32 + _ = _
  rw [Ideal.ofBits_zero_f32, zero_add]

/-- Loop 2 run from zero: after all 32 trips its value at bin b is the block's count for channel 1. -/
theorem st2_total (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (b : Fin 64) :
    st_k0_t2 (F := Ideal) 𝒱 c bd i arg2 harg2 arg3 harg3 arg4 harg4 (harg2.unread x0) (k0_pay7 (F := Ideal)) k0_t2_loop.trips (ix2 b (0 : Fin 1))
      = tileCount x0 1 b := by
  rw [trips2, st2_apply 𝒱 c bd i arg2 harg2 arg3 harg3 arg4 harg4 x0 _ b 32 le_rfl, sum_chunkCountN]
  show Ideal.ofBits .f32 0x00000000#32 + _ = _
  rw [Ideal.ofBits_zero_f32, zero_add]

/-- Loop 3 run from zero: after all 32 trips its value at bin b is the block's count for channel 2. -/
theorem st3_total (𝒱 : Variants) (c : Dev nD) (bd : Option 𝒱.V) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole)
    (x0 : Vec Ideal S1x3x256x1024 .f32) (b : Fin 64) :
    st_k0_t3 (F := Ideal) 𝒱 c bd i arg2 harg2 arg3 harg3 arg4 harg4 (harg2.unread x0) (k0_pay10 (F := Ideal)) k0_t3_loop.trips (ix2 b (0 : Fin 1))
      = tileCount x0 2 b := by
  rw [trips3, st3_apply 𝒱 c bd i arg2 harg2 arg3 harg3 arg4 harg4 x0 _ b 32 le_rfl, sum_chunkCountN]
  show Ideal.ofBits .f32 0x00000000#32 + _ = _
  rw [Ideal.ofBits_zero_f32, zero_add]

end Cert.KernelHist

end
-- ==== Proof.KPiece.lean ====
/-
  What one grid point leaves in the 64 × 3 accumulator, read at the ideal instance.
  The body adds, column by column, the block's per-bin counts of channel 0, 1, 2 to the accumulator; at the
  first row-tile of an image it first zeroes the accumulator, and at the last it copies the accumulator to
  the output block.
-/
import proofs.«118465_j50113678410581_2_alg».proof.Proof.Gen.KernelIdeal.Frame
import proofs.«118465_j50113678410581_2_alg».proof.Proof.KLoop
import Idealize.ShloMosaic.Lib.ValueLayout

set_option maxRecDepth 16384

noncomputable section

open scoped BigOperators

namespace Cert.KernelHist

open Idealize.ShloMosaic Idealize.ShloMosaic.ValueIdx Idealize.ShloMosaic.Tactic Cert.KernelIdeal Cert.KernelIdeal.Gen Cert.HistSpec

/-! ## Columns of the accumulator -/

/-- The rectangle of column cc of the 64 × 3 accumulator places its row b at (b, cc). -/
theorem col_idx (off : Fin 2 → Nat) (inb : ∀ a, off a + S64x1.size a ≤ S64x3.size a) (cc : Fin 3) (hoff : off = ![0, cc.val]) (b : Fin 64) :
    (Rect.unit (s := S64x3) off S64x1.size inb).toLoadRect.idx (ix2 b (0 : Fin 1)) = ix2 b cc := by
  subst hoff
  refine funext fun a => Fin.ext ?_
  match a with
  | ⟨0, _⟩ => show 0 + 1 * b.val = b.val; omega
  | ⟨1, _⟩ => show cc.val + 1 * 0 = cc.val; omega

/-- After a last store to column cc, the accumulator holds that store's value in column cc. -/
theorem canon_col_eq (off : Fin 2 → Nat) (inb : ∀ a, off a + S64x1.size a ≤ S64x3.size a) (w : S64x1.Idx → Elt Ideal .f32)
    (L : List (View.Piece (Elt Ideal) S64x3 .f32)) (b : Fin 64) (cc : Fin 3) (hoff : off = ![0, cc.val]) :
    View.canon (⟨Rect.unit (s := S64x3) off S64x1.size inb, w⟩ :: L) (ix2 b cc) = w (ix2 b (0 : Fin 1)) := by
  rw [← col_idx off inb cc hoff b]
  exact View.canon_cons_emb (Rect.unit (s := S64x3) off S64x1.size inb) w L (ix2 b (0 : Fin 1))

/-- A last store to another column leaves column cc as the earlier stores left it. -/
theorem canon_col_ne (off : Fin 2 → Nat) (inb : ∀ a, off a + S64x1.size a ≤ S64x3.size a) (w : S64x1.Idx → Elt Ideal .f32)
    (L : List (View.Piece (Elt Ideal) S64x3 .f32)) (b : Fin 64) (cc : Fin 3) (c' : ℕ) (hoff : off = ![0, c']) (hne : c' ≠ cc.val) :
    View.canon (⟨Rect.unit (s := S64x3) off S64x1.size inb, w⟩ :: L) (ix2 b cc) = View.canon L (ix2 b cc) := by
  subst hoff
  refine View.canon_cons_of_not_mem _ L fun h => ?_
  have h1 := (Rect.mem_set_unit (s := S64x3) (off := ![0, c']) (size := S64x1.size) (inb := inb) (i := ix2 b cc)).mp h (1 : Fin 2)
  have e1 : ((ix2 b cc : S64x3.Idx) (1 : Fin 2)).val = cc.val := rfl
  have e2 : (![0, c'] : Fin 2 → Nat) (1 : Fin 2) = c' := rfl
  have e3 : S64x1.size (1 : Fin 2) = 1 := rfl
  rw [e1, e2, e3] at h1
  omega

theorem hz2 : (![0, 0] : Fin 2 → Nat) = fun _ => 0 := funext fun a => by fin_cases a <;> rfl

/-- A load of column cc after the stores L reads what they left there. -/
theorem readCov_col (v : View sig .tc .vmem S64x3 .f32) (L : List (View.Piece (Elt Ideal) S64x3 .f32))
    (off : Fin 2 → Nat) (inb : ∀ a, off a + S64x1.size a ≤ S64x3.size a) (cc : Fin 3) (hoff : off = ![0, cc.val]) (b : Fin 64) :
    v.readCov L (Rect.unit (s := S64x3) off S64x1.size inb).toLoadRect (ix2 b (0 : Fin 1)) = View.canon L (ix2 b cc) := by
  rw [View.readCov_eq_canon']
  show View.canon L ((Rect.unit (s := S64x3) off S64x1.size inb).toLoadRect.idx (ix2 b (0 : Fin 1))) = _
  rw [col_idx off inb cc hoff b]

/-- A load of column cc from an accumulator holding xs0 reads xs0 there. -/
theorem read_col (arg4 : Memref sig .tc .vmem S64x3 .f32) (harg4 : arg4.IsWhole) (xs0 : Vec Ideal S64x3 .f32)
    (off : Fin 2 → Nat) (inb : ∀ a, off a + S64x1.size a ≤ S64x3.size a) (cc : Fin 3) (hoff : off = ![0, cc.val]) (b : Fin 64) :
    View.readAt (Elt Ideal) arg4.view (Rect.unit (s := S64x3) off S64x1.size inb).toLoadRect (harg4.unread xs0) (ix2 b (0 : Fin 1))
      = xs0 (ix2 b cc) := by
  rw [View.readAt_eq_ld, harg4.read_unread]
  show xs0 ((Rect.unit (s := S64x3) off S64x1.size inb).toLoadRect.idx (ix2 b (0 : Fin 1))) = _
  rw [col_idx off inb cc hoff b]

/-- One column update: the loaded column plus the loop's result, at bin b. -/
theorem pay6_apply (v5 : FVec Ideal S64x1 .f32) (v6 : Vec Ideal S64x1 .f32) (b : Fin 64) :
    k0_pay6 (F := Ideal) v5 v6 (ix2 b (0 : Fin 1)) = v6 (ix2 b (0 : Fin 1)) + v5 (ix2 b (0 : Fin 1)) := by
  unfold k0_pay6
  exact congrFun (shapeCast_self _ shapeCasts_S64x1_S64x1) _

/-- The zero block the first row-tile stores. -/
theorem pay3_apply (y : S64x3.Idx) : k0_pay3 (F := Ideal) y = 0 := by
  unfold k0_pay3
  refine (congrFun (shapeCast_self _ shapeCasts_S64x3_S64x3) _).trans ?_
  show Ideal.ofBits .f32 0x00000000#32 = 0
  exact Ideal.ofBits_zero_f32

/-! ## The three cases -/

/-- A middle row-tile: every entry of the accumulator grows by the block's count. -/
theorem sout_B (c : Dev nD) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (hc0 : ¬cond0_0 i) (hc1 : ¬cond0_1 i)
    (x0 : Vec Ideal S1x3x256x1024 .f32) (xs0 : Vec Ideal S64x3 .f32) (b : Fin 64) (cc : Fin 3) :
    sout0_B_0 (F := Ideal) c i arg2 harg2 arg3 harg3 arg4 harg4 hc0 hc1 x0 xs0 (ix2 b cc) = xs0 (ix2 b cc) + tileCount x0 cc b := by
  unfold sout0_B_0
  rw [View.read_writes_eq_canon _ _ _ (scover0_B_0 c i arg2 harg2 arg3 harg3 arg4 harg4 hc0 hc1 x0 xs0)]
  unfold kernelRun0_B
  dsimp only
  sl_unfold_words
  match cc with
  | ⟨0, _⟩ =>
    refine (canon_col_ne _ _ _ _ b (0 : Fin 3) 2 rfl (by decide)).trans ?_
    refine (canon_col_ne _ _ _ _ b (0 : Fin 3) 1 rfl (by decide)).trans ?_
    refine (canon_col_eq _ _ _ _ b (0 : Fin 3) rfl).trans ?_
    refine (pay6_apply _ _ b).trans ?_
    exact congrArg₂ (· + ·) (read_col arg4 harg4 xs0 _ _ (0 : Fin 3) rfl b) (st1_total Variants.none c none i arg2 harg2 arg3 harg3 arg4 harg4 x0 b)
  | ⟨1, _⟩ =>
    refine (canon_col_ne _ _ _ _ b (1 : Fin 3) 2 rfl (by decide)).trans ?_
    refine (canon_col_eq _ _ _ _ b (1 : Fin 3) rfl).trans ?_
    refine (pay6_apply _ _ b).trans ?_
    exact congrArg₂ (· + ·) (read_col arg4 harg4 xs0 _ _ (1 : Fin 3) rfl b) (st2_total Variants.none c none i arg2 harg2 arg3 harg3 arg4 harg4 x0 b)
  | ⟨2, _⟩ =>
    refine (canon_col_eq _ _ _ _ b (2 : Fin 3) rfl).trans ?_
    refine (pay6_apply _ _ b).trans ?_
    exact congrArg₂ (· + ·) (read_col arg4 harg4 xs0 _ _ (2 : Fin 3) rfl b) (st3_total Variants.none c none i arg2 harg2 arg3 harg3 arg4 harg4 x0 b)

/-- The first row-tile of an image: the accumulator is zeroed, then every entry receives the block's count. -/
theorem sout_A (c : Dev nD) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (hc0 : cond0_0 i) (hc1 : ¬cond0_1 i)
    (x0 : Vec Ideal S1x3x256x1024 .f32) (b : Fin 64) (cc : Fin 3) :
    sout0_A_0 (F := Ideal) c i arg2 harg2 arg3 harg3 arg4 harg4 hc0 hc1 x0 (ix2 b cc) = tileCount x0 cc b := by
  unfold sout0_A_0
  rw [View.read_writes_eq_canon _ _ _ (scover0_A_0 c i arg2 harg2 arg3 harg3 arg4 harg4 hc0 hc1 x0)]
  unfold kernelRun0_A
  dsimp only
  sl_unfold_words
  match cc with
  | ⟨0, _⟩ =>
    refine (canon_col_ne _ _ _ _ b (0 : Fin 3) 2 rfl (by decide)).trans ?_
    refine (canon_col_ne _ _ _ _ b (0 : Fin 3) 1 rfl (by decide)).trans ?_
    refine (canon_col_eq _ _ _ _ b (0 : Fin 3) rfl).trans ?_
    refine (pay6_apply _ _ b).trans ?_
    exact (congrArg₂ (· + ·) ((readCov_col _ _ _ _ (0 : Fin 3) rfl b).trans ((congrFun (View.canon_unit_zero hz2 _ _) _).trans (pay3_apply _))) (st1_total Variants.none c none i arg2 harg2 arg3 harg3 arg4 harg4 x0 b)).trans (zero_add _)
  | ⟨1, _⟩ =>
    refine (canon_col_ne _ _ _ _ b (1 : Fin 3) 2 rfl (by decide)).trans ?_
    refine (canon_col_eq _ _ _ _ b (1 : Fin 3) rfl).trans ?_
    refine (pay6_apply _ _ b).trans ?_
    exact (congrArg₂ (· + ·) ((readCov_col _ _ _ _ (1 : Fin 3) rfl b).trans ((canon_col_ne _ _ _ _ b (1 : Fin 3) 0 rfl (by decide)).trans ((congrFun (View.canon_unit_zero hz2 _ _) _).trans (pay3_apply _)))) (st2_total Variants.none c none i arg2 harg2 arg3 harg3 arg4 harg4 x0 b)).trans (zero_add _)
  | ⟨2, _⟩ =>
    refine (canon_col_eq _ _ _ _ b (2 : Fin 3) rfl).trans ?_
    refine (pay6_apply _ _ b).trans ?_
    exact (congrArg₂ (· + ·) ((readCov_col _ _ _ _ (2 : Fin 3) rfl b).trans ((canon_col_ne _ _ _ _ b (2 : Fin 3) 1 rfl (by decide)).trans ((canon_col_ne _ _ _ _ b (2 : Fin 3) 0 rfl (by decide)).trans ((congrFun (View.canon_unit_zero hz2 _ _) _).trans (pay3_apply _))))) (st3_total Variants.none c none i arg2 harg2 arg3 harg3 arg4 harg4 x0 b)).trans (zero_add _)

/-- The last row-tile of an image: the accumulator grows by the block's count as at a middle tile … -/
theorem sout_C (c : Dev nD) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (hc0 : ¬cond0_0 i) (hc1 : cond0_1 i)
    (x0 : Vec Ideal S1x3x256x1024 .f32) (xs0 : Vec Ideal S64x3 .f32) (b : Fin 64) (cc : Fin 3) :
    sout0_C_0 (F := Ideal) c i arg2 harg2 arg3 harg3 arg4 harg4 hc0 hc1 x0 xs0 (ix2 b cc) = xs0 (ix2 b cc) + tileCount x0 cc b := by
  unfold sout0_C_0
  rw [View.read_writes_eq_canon _ _ _ (scover0_C_0 c i arg2 harg2 arg3 harg3 arg4 harg4 hc0 hc1 x0 xs0)]
  unfold kernelRun0_C
  dsimp only
  sl_unfold_words
  match cc with
  | ⟨0, _⟩ =>
    refine (canon_col_ne _ _ _ _ b (0 : Fin 3) 2 rfl (by decide)).trans ?_
    refine (canon_col_ne _ _ _ _ b (0 : Fin 3) 1 rfl (by decide)).trans ?_
    refine (canon_col_eq _ _ _ _ b (0 : Fin 3) rfl).trans ?_
    refine (pay6_apply _ _ b).trans ?_
    exact congrArg₂ (· + ·) (read_col arg4 harg4 xs0 _ _ (0 : Fin 3) rfl b) (st1_total Variants.none c none i arg2 harg2 arg3 harg3 arg4 harg4 x0 b)
  | ⟨1, _⟩ =>
    refine (canon_col_ne _ _ _ _ b (1 : Fin 3) 2 rfl (by decide)).trans ?_
    refine (canon_col_eq _ _ _ _ b (1 : Fin 3) rfl).trans ?_
    refine (pay6_apply _ _ b).trans ?_
    exact congrArg₂ (· + ·) (read_col arg4 harg4 xs0 _ _ (1 : Fin 3) rfl b) (st2_total Variants.none c none i arg2 harg2 arg3 harg3 arg4 harg4 x0 b)
  | ⟨2, _⟩ =>
    refine (canon_col_eq _ _ _ _ b (2 : Fin 3) rfl).trans ?_
    refine (pay6_apply _ _ b).trans ?_
    exact congrArg₂ (· + ·) (read_col arg4 harg4 xs0 _ _ (2 : Fin 3) rfl b) (st3_total Variants.none c none i arg2 harg2 arg3 harg3 arg4 harg4 x0 b)

theorem hz3 : (![0, 0, 0] : Fin 3 → Nat) = fun _ => 0 := funext fun a => by fin_cases a <;> rfl

/-- The whole-accumulator rectangle places (b, cc) at (b, cc). -/
theorem whole_idx (inb : ∀ a, (![0, 0] : Fin 2 → Nat) a + S64x3.size a ≤ S64x3.size a) (b : Fin 64) (cc : Fin 3) :
    (Rect.unit (s := S64x3) ![0, 0] S64x3.size inb).toLoadRect.idx (ix2 b cc) = ix2 b cc := by
  refine funext fun a => Fin.ext ?_
  match a with
  | ⟨0, _⟩ => show 0 + 1 * b.val = b.val; omega
  | ⟨1, _⟩ => show 0 + 1 * cc.val = cc.val; omega

/-- … and the output block receives a copy of the updated accumulator. -/
theorem out_C (c : Dev nD) (i : grid0.Coords) (arg2 : Memref sig .tc .vmem S1x3x256x1024 .f32) (harg2 : arg2.IsWhole) (arg3 : Memref sig .tc .vmem S1x64x3 .f32) (harg3 : arg3.IsWhole) (arg4 : Memref sig .tc .vmem S64x3 .f32) (harg4 : arg4.IsWhole) (hc0 : ¬cond0_0 i) (hc1 : cond0_1 i)
    (x0 : Vec Ideal S1x3x256x1024 .f32) (xs0 : Vec Ideal S64x3 .f32) (b : Fin 64) (cc : Fin 3) :
    out0_C_1 (F := Ideal) c i arg2 harg2 arg3 harg3 arg4 harg4 hc0 hc1 x0 xs0 (ix3 (0 : Fin 1) b cc) = xs0 (ix2 b cc) + tileCount x0 cc b := by
  unfold out0_C_1
  rw [View.read_writes_eq_canon _ _ _ (cover0_C_1 c i arg2 harg2 arg3 harg3 arg4 harg4 hc0 hc1 x0 xs0)]
  unfold kernelRun0_C
  dsimp only
  sl_unfold_words
  refine (congrFun (View.canon_unit_zero hz3 _ _) _).trans ?_
  unfold k0_pay2
  refine (shapeCast_ab_1ab_apply _ shapeCasts_S64x3_S1x64x3 (0 : Fin 1) b cc).trans ?_
  rw [View.readCov_eq_canon']
  show View.canon _ ((Rect.unit (s := S64x3) ![0, 0] S64x3.size inb_S64x3_S64x3_0_0).toLoadRect.idx (ix2 b cc)) = _
  rw [whole_idx]
  match cc with
  | ⟨0, _⟩ =>
    refine (canon_col_ne _ _ _ _ b (0 : Fin 3) 2 rfl (by decide)).trans ?_
    refine (canon_col_ne _ _ _ _ b (0 : Fin 3) 1 rfl (by decide)).trans ?_
    refine (canon_col_eq _ _ _ _ b (0 : Fin 3) rfl).trans ?_
    refine (pay6_apply _ _ b).trans ?_
    exact congrArg₂ (· + ·) (read_col arg4 harg4 xs0 _ _ (0 : Fin 3) rfl b) (st1_total Variants.none c none i arg2 harg2 arg3 harg3 arg4 harg4 x0 b)
  | ⟨1, _⟩ =>
    refine (canon_col_ne _ _ _ _ b (1 : Fin 3) 2 rfl (by decide)).trans ?_
    refine (canon_col_eq _ _ _ _ b (1 : Fin 3) rfl).trans ?_
    refine (pay6_apply _ _ b).trans ?_
    exact congrArg₂ (· + ·) (read_col arg4 harg4 xs0 _ _ (1 : Fin 3) rfl b) (st2_total Variants.none c none i arg2 harg2 arg3 harg3 arg4 harg4 x0 b)
  | ⟨2, _⟩ =>
    refine (canon_col_eq _ _ _ _ b (2 : Fin 3) rfl).trans ?_
    refine (pay6_apply _ _ b).trans ?_
    exact congrArg₂ (· + ·) (read_col arg4 harg4 xs0 _ _ (2 : Fin 3) rfl b) (st3_total Variants.none c none i arg2 harg2 arg3 harg3 arg4 harg4 x0 b)

end Cert.KernelHist

end
-- ==== Proof.KAcc.lean ====
/-
  The accumulator across the grid, read at the ideal instance.
  Point t of the 16 × 4 grid works on image t / 4 and row-tile t % 4. The block it is given holds rows
  256·(t % 4) … 256·(t % 4) + 255 of that image, so the count it adds is the count of that row-tile; after
  point t the accumulator holds the counts of row-tiles 0 … t % 4 of image t / 4.
-/
import proofs.«118465_j50113678410581_2_alg».proof.Proof.KPiece
import proofs.«118465_j50113678410581_2_alg».proof.Proof.HistMath

set_option maxRecDepth 16384

noncomputable section

open scoped BigOperators

namespace Cert.KernelHist

open Idealize.ShloMosaic Idealize.ShloMosaic.TcCoe Idealize.ShloMosaic.ValueIdx Cert.KernelIdeal Cert.KernelIdeal.Gen Cert.HistSpec
open Idealize.ShloMosaic.Pipeline (Dat)

variable (m : (ℓ : Loc nD τ sig) → Buf (Elt Ideal) ℓ)

/-- Where the input window's block sits at point t: image t / 4, all channels, row-tile t % 4, all lanes. -/
theorem win0_index : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, win0_0.index t (0 : Fin 4) = t.val / 4 ∧ win0_0.index t (1 : Fin 4) = 0
    ∧ win0_0.index t (2 : Fin 4) = t.val % 4 ∧ win0_0.index t (3 : Fin 4) = 0)

/-- The block at point t, at (channel cc, row y, lane l), is the image t / 4 at row 256·(t % 4) + y. -/
theorem iblk_read (c : Dev nD) (t : Fin cfg0.N) (n : Fin 16) (h : Fin 4) (hn : n.val = t.val / 4) (hh : h.val = t.val % 4)
    (cc : Fin 3) (y : Fin 256) (l : Fin 1024) :
    (iblk (F := Ideal) m c 0 t : Vec Ideal S1x3x256x1024 .f32) (ix4 (0 : Fin 1) cc y l)
      = m ((c : Thread nD τ).loc main_arg0) (ix4 n cc (⟨256 * h.val + y.val, by omega⟩ : Fin 1024) l) := by
  obtain ⟨e0, e1, e2, e3⟩ := win0_index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 4) * 1 + 1 * 0 = n.val; omega
  | ⟨1, _⟩ => show win0_0.index t (1 : Fin 4) * 3 + 1 * cc.val = cc.val; omega
  | ⟨2, _⟩ => show win0_0.index t (2 : Fin 4) * 256 + 1 * y.val = 256 * h.val + y.val; omega
  | ⟨3, _⟩ => show win0_0.index t (3 : Fin 4) * 1024 + 1 * l.val = l.val; omega

/-- The count of row-tile h of image n, channel cc, bin b. -/
def tileAt (x : FVec Ideal S16x3x1024x1024 .f32) (n : Fin 16) (h : Fin 4) (cc : Fin 3) (b : Fin 64) : EReal :=
  ∑ k : Fin 32, ∑ l : Fin 1024, ∑ r : Fin 8, hit (x (ix4 n cc (rowOf h k r) l)) b

/-- The same with the row-tile a natural number, zero past the last. -/
def tileAtN (x : FVec Ideal S16x3x1024x1024 .f32) (n : Fin 16) (h : ℕ) (cc : Fin 3) (b : Fin 64) : EReal :=
  if hh : h < 4 then tileAt x n ⟨h, hh⟩ cc b else 0

/-- The block's count at point t is the count of row-tile t % 4 of image t / 4. -/
theorem tile_eq (c : Dev nD) (t : Fin cfg0.N) (n : Fin 16) (h : Fin 4) (hn : n.val = t.val / 4) (hh : h.val = t.val % 4)
    (cc : Fin 3) (b : Fin 64) :
    tileCount (iblk (F := Ideal) m c 0 t : Vec Ideal S1x3x256x1024 .f32) cc b
      = tileAt (m ((c : Thread nD τ).loc main_arg0)) n h cc b := by
  unfold tileCount chunkCount tileAt
  refine Finset.sum_congr rfl fun k _ => Finset.sum_congr rfl fun l _ => Finset.sum_congr rfl fun r _ => ?_
  rw [iblk_read m c t n h hn hh cc _ l]
  refine congrArg (fun y => hit (m ((c : Thread nD τ).loc main_arg0) (ix4 n cc y l)) b) (Fin.ext ?_)
  show 256 * h.val + (8 * k.val + r.val) = 256 * h.val + 8 * k.val + r.val
  omega

/-- After point t the accumulator holds, at (bin b, channel cc), the counts of row-tiles 0 … t % 4 of image t / 4. -/
theorem acc_eq (c : Dev nD) : ∀ (t : ℕ) (ht : t < cfg0.N) (n : Fin 16) (_ : n.val = t / 4) (b : Fin 64) (cc : Fin 3),
    (outsAt0 (F := Ideal) m c t ht).2 (ix2 b cc)
      = ∑ h ∈ Finset.range (t % 4 + 1), tileAtN (m ((c : Thread nD τ).loc main_arg0)) n h cc b
  | 0, ht, n, hn, b, cc => by
    rw [outsAt0_A m c ⟨0, ht⟩ rfl (show ¬(0 : ℕ) % 4 = 3 by decide)]
    dsimp only
    refine (sout_A _ _ _ _ _ _ _ _ _ _ _ b cc).trans ?_
    rw [tile_eq m c ⟨0, ht⟩ n (0 : Fin 4) hn rfl cc b]
    show _ = ∑ h ∈ Finset.range 1, _
    rw [Finset.sum_range_one]
    rfl
  | t + 1, ht, n, hn, b, cc => by
    have hN : t + 1 < 64 := lt_of_lt_of_eq ht (show cfg0.N = 64 from N_0)
    by_cases h0 : (t + 1) % 4 = 0
    · have h1 : ¬(t + 1) % 4 = 3 := by omega
      rw [outsAt0_A m c ⟨t + 1, ht⟩ h0 h1]
      dsimp only
      refine (sout_A _ _ _ _ _ _ _ _ _ _ _ b cc).trans ?_
      rw [tile_eq m c ⟨t + 1, ht⟩ n (0 : Fin 4) hn (by show 0 = (t + 1) % 4; omega) cc b, h0]
      show _ = ∑ h ∈ Finset.range 1, _
      rw [Finset.sum_range_one]
      rfl
    · have hmod : (t + 1) % 4 = t % 4 + 1 := by omega
      have hdiv : n.val = t / 4 := by omega
      have hlt : t % 4 + 1 < 4 := by omega
      have ih := acc_eq c t (Nat.lt_of_succ_lt ht) n hdiv b cc
      by_cases h1 : (t + 1) % 4 = 3
      · rw [outsAt0_C m c ⟨t + 1, ht⟩ h0 h1]
        dsimp only
        refine (sout_C _ _ _ _ _ _ _ _ _ _ _ _ b cc).trans ?_
        rw [tile_eq m c ⟨t + 1, ht⟩ n ⟨t % 4 + 1, hlt⟩ hn hmod.symm cc b, hmod, Finset.sum_range_succ _ (t % 4 + 1)]
        refine congrArg₂ (· + ·) ih ?_
        unfold tileAtN
        rw [dif_pos hlt]
      · rw [outsAt0_B m c ⟨t + 1, ht⟩ h0 h1]
        dsimp only
        refine (sout_B _ _ _ _ _ _ _ _ _ _ _ _ b cc).trans ?_
        rw [tile_eq m c ⟨t + 1, ht⟩ n ⟨t % 4 + 1, hlt⟩ hn hmod.symm cc b, hmod, Finset.sum_range_succ _ (t % 4 + 1)]
        refine congrArg₂ (· + ·) ih ?_
        unfold tileAtN
        rw [dif_pos hlt]

end Cert.KernelHist

end
-- ==== Proof.KFinal.lean ====
/-
  The kernel's output array, read at the ideal instance.
  The last row-tile of image n (grid point 4·n + 3) copies the accumulator, then holding the counts of all
  four row-tiles, to block n of the 16 × 64 × 3 output; the sixteen blocks tile the output. So the output at
  (n, b, cc) is the number of pixels of image n, channel cc, in bin b.
-/
import proofs.«118465_j50113678410581_2_alg».proof.Proof.KAcc

set_option maxRecDepth 16384

noncomputable section

open scoped BigOperators

namespace Cert.KernelHist

open Idealize.ShloMosaic Idealize.ShloMosaic.TcCoe Idealize.ShloMosaic.ValueIdx Cert.KernelIdeal Cert.KernelIdeal.Gen Cert.HistSpec
open Idealize.ShloMosaic.Pipeline (Dat)

variable (m : (ℓ : Loc nD τ sig) → Buf (Elt Ideal) ℓ)

/-- Where the output window's block sits at point t: image t / 4, all bins, all channels. -/
theorem win1_index : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- The four row-tiles of a channel make up its histogram. -/
theorem sum_tiles (x : FVec Ideal S16x3x1024x1024 .f32) (n : Fin 16) (cc : Fin 3) (b : Fin 64) :
    ∑ h ∈ Finset.range 4, tileAtN x n h cc b = hist x n cc b := by
  rw [← histTiled_eq]
  unfold histTiled
  rw [← Fin.sum_univ_eq_sum_range (fun h => tileAtN x n h cc b) 4]
  refine Finset.sum_congr rfl fun h _ => ?_
  unfold tileAtN
  rw [dif_pos h.isLt]
  rfl

/-- What the last row-tile of an image writes back is that image's block of the histogram array. -/
theorem flushed_eq (c : Dev nD) (t : Fin cfg0.N) (hf : (cfg0.win 1).flush t = true) :
    (dats m 0 c).flushed 1 t
      = ((cfg0.win 1).blk t).view.read (Elt Ideal) (histT (m ((c : Thread nD τ).loc main_arg0)) : Buf (Elt Ideal) ((c : Thread nD τ).loc main_v0)) := by
  have hN : t.val < 64 := lt_of_lt_of_eq t.isLt (show cfg0.N = 64 from N_0)
  have h3 : t.val % 4 = 3 := (flush0_1 t).mp hf
  have h0 : ¬t.val % 4 = 0 := by omega
  obtain ⟨e0, e1, e2⟩ := win1_index t
  show (cfg0.win 1).cut (grid0.coords t) ((dats m 0 c).after 1 t) = _
  rw [after0_1, outsAt0_C m c t h0 h3]
  funext j
  obtain ⟨u, b, cc, rfl⟩ : ∃ (u : Fin 1) (b : Fin 64) (cc : Fin 3), j = ix3 u b cc := ⟨j 0, j 1, j 2, eq_ix3 j⟩
  obtain rfl : u = 0 := Subsingleton.elim _ _
  have he : ((cfg0.win 1).blk t).view.emb (ix3 (0 : Fin 1) b cc) = ix3 (⟨t.val / 4, by omega⟩ : Fin 16) b cc := by
    refine funext fun a => Fin.ext ?_
    match a with
    | ⟨0, _⟩ => show win0_1.index t (0 : Fin 3) * 1 + 1 * 0 = t.val / 4; omega
    | ⟨1, _⟩ => show win0_1.index t (1 : Fin 3) * 64 + 1 * b.val = b.val; omega
    | ⟨2, _⟩ => show win0_1.index t (2 : Fin 3) * 3 + 1 * cc.val = cc.val; omega
  have key : ∀ (hc0 : ¬cond0_0 (grid0.coords t)) (hc1 : cond0_1 (grid0.coords t)) (hlt : t.val - 1 < cfg0.N),
      out0_C_1 (F := Ideal) c (grid0.coords t) (ms0_0 t) (hs0_0 t) (ms0_1 t) (hs0_1 t) scM0_0 (Memref.isWhole_whole _) hc0 hc1
          (iblk m c 0 t) (outsAt0 m c (t.val - 1) hlt).2 (ix3 (0 : Fin 1) b cc)
        = hist (m ((c : Thread nD τ).loc main_arg0)) (⟨t.val / 4, by omega⟩ : Fin 16) cc b := by
    intro hc0 hc1 hlt
    refine (out_C _ _ _ _ _ _ _ _ hc0 hc1 _ _ b cc).trans ?_
    rw [acc_eq m c (t.val - 1) hlt (⟨t.val / 4, by omega⟩ : Fin 16) (by show t.val / 4 = (t.val - 1) / 4; omega) b cc,
      tile_eq m c t (⟨t.val / 4, by omega⟩ : Fin 16) (3 : Fin 4) rfl (by show 3 = t.val % 4; omega) cc b,
      show (t.val - 1) % 4 + 1 = 3 from by omega, ← sum_tiles, Finset.sum_range_succ _ 3]
    refine congrArg (_ + ·) ?_
    unfold tileAtN
    rw [dif_pos (by decide : 3 < 4)]
    rfl
  show out0_C_1 (F := Ideal) c (grid0.coords t) (ms0_0 t) (hs0_0 t) (ms0_1 t) (hs0_1 t) scM0_0 (Memref.isWhole_whole _)
        (fun h => h0 ((hcond0_0 t).mp h)) ((hcond0_1 t).mpr h3) (iblk m c 0 t)
        (outsAt0 m c (t.val - 1) (Nat.lt_of_le_of_lt (Nat.sub_le _ _) t.isLt)).2 (ix3 (0 : Fin 1) b cc)
      = histT (m ((c : Thread nD τ).loc main_arg0)) (((cfg0.win 1).blk t).view.emb (ix3 (0 : Fin 1) b cc))
  rw [key, he]
  rfl

/-- The grid point that writes back image n. -/
def lastPt (n : Fin 16) : Fin cfg0.N := ⟨4 * n.val + 3, by have hN : cfg0.N = 64 := N_0; omega⟩

/-- An index of the output array lies in point t's block iff each coordinate is in the block's range. -/
theorem mem_blk (t : Fin cfg0.N) (i : S16x64x3.Idx) :
    i ∈ ((cfg0.win 1).blk t).view.set ↔ ∀ a : Fin 3, win0_1.index t a * S1x64x3.size a ≤ (i a).val
      ∧ (i a).val < win0_1.index t a * S1x64x3.size a + S1x64x3.size a := by
  show i ∈ ((View.whole main_v0).slice (win0_1.rect t)).set ↔ _
  rw [View.set_slice_whole, Rect.mem_set_unit]
  exact Iff.rfl

/-- THE OUTPUT ARRAY after the run: the histogram counts, image by bin by channel. -/
theorem final_v0 (c : Dev nD) :
    (dats m 0 c).arrAt 1 cfg0.N
      = (histT (m ((c : Thread nD τ).loc main_arg0)) : Buf (Elt Ideal) ((c : Thread nD τ).loc main_v0)) :=
  (dats m 0 c).arrAt_eq_of_cover 1 _ (flushed_eq m c) fun i => by
    obtain ⟨n, b, cc, rfl⟩ : ∃ (n : Fin 16) (b : Fin 64) (cc : Fin 3), i = ix3 n b cc := ⟨i 0, i 1, i 2, eq_ix3 i⟩
    refine ⟨lastPt n, (flush0_1 _).mpr (by show (4 * n.val + 3) % 4 = 3; omega), ?_⟩
    rw [mem_blk]
    obtain ⟨e0, e1, e2⟩ := win1_index (lastPt n)
    have e0' : win0_1.index (lastPt n) (0 : Fin 3) = (4 * n.val + 3) / 4 := e0
    intro a
    match a with
    | ⟨0, _⟩ => show win0_1.index (lastPt n) (0 : Fin 3) * 1 ≤ n.val ∧ n.val < win0_1.index (lastPt n) (0 : Fin 3) * 1 + 1; omega
    | ⟨1, _⟩ => show win0_1.index (lastPt n) (1 : Fin 3) * 64 ≤ b.val ∧ b.val < win0_1.index (lastPt n) (1 : Fin 3) * 64 + 64; omega
    | ⟨2, _⟩ => show win0_1.index (lastPt n) (2 : Fin 3) * 3 ≤ cc.val ∧ cc.val < win0_1.index (lastPt n) (2 : Fin 3) * 3 + 3; omega

end Cert.KernelHist

end
-- ==== Proof.lean ====
/-
  The proof of `Cert.Claim`.
  Both programs compute, for every image and channel, the 64-bin histogram of the pixel values — the kernel by comparing
  each pixel's bin with every bin and summing the matches, the reference by adding 1 at each pixel's bin position — and
  then apply the same two-layer perceptron to the 16 × 192 array of counts. Counting is exact on the extended reals and
  sums there may be regrouped freely, so at the ideal instance both programs end with the same function of their
  arguments: the perceptron of the histogram features.
-/
import proofs.«118465_j50113678410581_2_alg».proof.Defs
import proofs.«118465_j50113678410581_2_alg».proof.Proof.Gen.Kernel
import proofs.«118465_j50113678410581_2_alg».proof.Proof.Gen.Kernel.Skeleton
import proofs.«118465_j50113678410581_2_alg».proof.Proof.Gen.Kernel.Loops
import proofs.«118465_j50113678410581_2_alg».proof.Proof.Gen.Kernel.Launch
import proofs.«118465_j50113678410581_2_alg».proof.Proof.Gen.Kernel.Points
import proofs.«118465_j50113678410581_2_alg».proof.Proof.Gen.Kernel.Frame
import proofs.«118465_j50113678410581_2_alg».proof.Proof.Gen.KernelIdeal
import proofs.«118465_j50113678410581_2_alg».proof.Proof.Gen.KernelIdeal.Skeleton
import proofs.«118465_j50113678410581_2_alg».proof.Proof.Gen.KernelIdeal.Loops
import proofs.«118465_j50113678410581_2_alg».proof.Proof.Gen.KernelIdeal.Launch
import proofs.«118465_j50113678410581_2_alg».proof.Proof.Gen.KernelIdeal.Points
import proofs.«118465_j50113678410581_2_alg».proof.Proof.Gen.KernelIdeal.Frame
import proofs.«118465_j50113678410581_2_alg».proof.Proof.Gen.ReferenceIdeal
import proofs.«118465_j50113678410581_2_alg».proof.Proof.Gen.Pre_finite_inputs
import proofs.«118465_j50113678410581_2_alg».proof.Proof.Gen.ReferenceIdeal.Run
import proofs.«118465_j50113678410581_2_alg».proof.Proof.Gen.ReferenceIdeal.Read
import proofs.«118465_j50113678410581_2_alg».proof.Proof.Tail
import proofs.«118465_j50113678410581_2_alg».proof.Proof.RefHist
import proofs.«118465_j50113678410581_2_alg».proof.Proof.KFinal
import Idealize.ShloMosaic.Adequacy
import Idealize.ShloMosaic.Init

noncomputable section

namespace Cert.Proof

open Idealize.ShloMosaic Idealize.SL.Sem

/-- The certificate: the three programs run and leave their arguments as they were; the ideal pass rewrote nothing; and
    at the ideal instance the kernel's program and the reference, started on the same arguments, end with the same
    array — the shared perceptron applied to the histogram features of the image. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    fun m ρ m' ρ' _ hagree =>
      ⟨fun c => Cert.Tail.mlp
          (Cert.HistSpec.histArr (m ((c.tc : Thread Cert.KernelIdeal.nD Cert.KernelIdeal.τ).loc Cert.KernelIdeal.main_arg0)))
          (m ((c.tc : Thread Cert.KernelIdeal.nD Cert.KernelIdeal.τ).loc Cert.KernelIdeal.main_arg1)),
        Cert.Tail.kernel_run m ρ (fun c => Cert.KernelHist.final_v0 m c),
        (θ_run Cert.ReferenceIdeal.defs _ _).mono (fun _ h c =>
          ⟨(h c).1.trans ((Cert.ReferenceIdeal.Read.val_main_v46_eq _ _).trans ((Cert.Tail.ref_tail _ _).trans (by
              rw [Cert.RefHist.val_v21_eq, (hagree c).1, (hagree c).2]))),
            (h c).2⟩)
          (Cert.ReferenceIdeal.Value.run (F := Ideal) m' ρ')⟩⟩

end Cert.Proof

end
